-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x32 : Shape := ⟨2, ![128, 32]⟩
abbrev S32 : Shape := ⟨1, ![32]⟩
abbrev S32x32 : Shape := ⟨2, ![32, 32]⟩
abbrev S32x16 : Shape := ⟨2, ![32, 16]⟩
abbrev S16 : Shape := ⟨1, ![16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg9 : FVec F S32x16 .f32) (main_arg10 : FVec F S32x16 .f32) (main_arg11 : FVec F S16 .f32) (main_v33 : IVec S_ 1) : IVec S_ 1 :=
  let main_v34 : FVec F S32x16 .f32 := Host.absf main_arg9
  let main_cst_12 : FVec F S_ .f32 := constant S_ .f32 0x7F800000#32
  let main_v35 : FVec F S32x16 .f32 := broadcastInDim S32x16 ![] bcast_S_S32x16 main_cst_12
  let main_v36 : IVec S32x16 1 := cmpf .olt main_v34 main_v35
  let main_c_13 : IVec S_ 1 := constantI S_ 1 1#1
  let main_v37 : IVec S_ 1 := (fun x v => Host.reduce IntOp.andi x v reducesTo_S32x16_S_d0_1 h_S_) main_v36 main_c_13
  let main_v38 : IVec S_ 1 := andi main_v33 main_v37
  let main_v39 : FVec F S32x16 .f32 := Host.absf main_arg10
  let main_cst_14 : FVec F S_ .f32 := constant S_ .f32 0x7F800000#32
  let main_v40 : FVec F S32x16 .f32 := broadcastInDim S32x16 ![] bcast_S_S32x16 main_cst_14
  let main_v41 : IVec S32x16 1 := cmpf .olt main_v39 main_v40
  let main_c_15 : IVec S_ 1 := constantI S_ 1 1#1
  let main_v42 : IVec S_ 1 := (fun x v => Host.reduce IntOp.andi x v reducesTo_S32x16_S_d0_1 h_S_) main_v41 main_c_15
  let main_v43 : IVec S_ 1 := andi main_v38 main_v42
  let main_v44 : FVec F S16 .f32 := Host.absf main_arg11
  let main_cst_16 : FVec F S_ .f32 := constant S_ .f32 0x7F800000#32
  let main_v45 : FVec F S16 .f32 := broadcastInDim S16 ![] bcast_S_S16 main_cst_16
  let main_v46 : IVec S16 1 := cmpf .olt main_v44 main_v45
  let main_c_17 : IVec S_ 1 := constantI S_ 1 1#1
  let main_v47 : IVec S_ 1 := (fun x v => Host.reduce IntOp.andi x v reducesTo_S16_S_d0 h_S_) main_v46 main_c_17
  let main_v48 : IVec S_ 1 := andi main_v43 main_v47
  main_v48

def fn_part1 {F : FTy → Type} [FloatOps F] (main_arg6 : FVec F S32x32 .f32) (main_arg7 : FVec F S32x32 .f32) (main_arg8 : FVec F S32 .f32) (main_arg9 : FVec F S32x16 .f32) (main_arg10 : FVec F S32x16 .f32) (main_arg11 : FVec F S16 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x32 .f32 := Host.absf main_arg6
  let main_cst_6 : FVec F S_ .f32 := constant S_ .f32 0x7F800000#32
  let main_v20 : FVec F S32x32 .f32 := broadcastInDim S32x32 ![] bcast_S_S32x32 main_cst_6
  let main_v21 : IVec S32x32 1 := cmpf .olt main_v19 main_v20
  let main_c_7 : IVec S_ 1 := constantI S_ 1 1#1
  let main_v22 : IVec S_ 1 := (fun x v => Host.reduce IntOp.andi x v reducesTo_S32x32_S_d0_1 h_S_) main_v21 main_c_7
  let main_v23 : IVec S_ 1 := andi main_v18 main_v22
  let main_v24 : FVec F S32x32 .f32 := Host.absf main_arg7
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32 .f32 := Host.absf main_arg8
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg9 main_arg10 main_arg11 main_v33

def fn {F : FTy → Type} [FloatOps F] (main_arg0 : FVec F S100000x128 .f32) (main_arg1 : IVec S1600000 32) (main_arg2 : IVec S1600000 32) (main_arg3 : FVec F S128x32 .f32) (main_arg4 : FVec F S128x32 .f32) (main_arg5 : FVec F S32 .f32) (main_arg6 : FVec F S32x32 .f32) (main_arg7 : FVec F S32x32 .f32) (main_arg8 : FVec F S32 .f32) (main_arg9 : FVec F S32x16 .f32) (main_arg10 : FVec F S32x16 .f32) (main_arg11 : FVec F S16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x32 .f32 := Host.absf main_arg3
  let main_cst_0 : FVec F S_ .f32 := constant S_ .f32 0x7F800000#32
  let main_v5 : FVec F S128x32 .f32 := broadcastInDim S128x32 ![] bcast_S_S128x32 main_cst_0
  let main_v6 : IVec S128x32 1 := cmpf .olt main_v4 main_v5
  let main_c_1 : IVec S_ 1 := constantI S_ 1 1#1
  let main_v7 : IVec S_ 1 := (fun x v => Host.reduce IntOp.andi x v reducesTo_S128x32_S_d0_1 h_S_) main_v6 main_c_1
  let main_v8 : IVec S_ 1 := andi main_v3 main_v7
  let main_v9 : FVec F S128x32 .f32 := Host.absf main_arg4
  let main_cst_2 : FVec F S_ .f32 := constant S_ .f32 0x7F800000#32
  let main_v10 : FVec F S128x32 .f32 := broadcastInDim S128x32 ![] bcast_S_S128x32 main_cst_2
  let main_v11 : IVec S128x32 1 := cmpf .olt main_v9 main_v10
  let main_c_3 : IVec S_ 1 := constantI S_ 1 1#1
  let main_v12 : IVec S_ 1 := (fun x v => Host.reduce IntOp.andi x v reducesTo_S128x32_S_d0_1 h_S_) main_v11 main_c_3
  let main_v13 : IVec S_ 1 := andi main_v8 main_v12
  let main_v14 : FVec F S32 .f32 := Host.absf main_arg5
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg6 main_arg7 main_arg8 main_arg9 main_arg10 main_arg11 main_v13 main_v16
-- ==== Kernel.lean ====
abbrev S100000x128 : Shape := ⟨2, ![100000, 128]⟩
abbrev S1600000 : Shape := ⟨1, ![1600000]⟩
abbrev S128x32 : Shape := ⟨2, ![128, 32]⟩
abbrev S32 : Shape := ⟨1, ![32]⟩
abbrev S32x32 : Shape := ⟨2, ![32, 32]⟩
abbrev S32x16 : Shape := ⟨2, ![32, 16]⟩
abbrev S16 : Shape := ⟨1, ![16]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x32 : Shape := ⟨2, ![1, 32]⟩
abbrev S100000x32 : Shape := ⟨2, ![100000, 32]⟩
abbrev S5000x128 : Shape := ⟨2, ![5000, 128]⟩
abbrev S5000x32 : Shape := ⟨2, ![5000, 32]⟩
abbrev S1600000x32 : Shape := ⟨2, ![1600000, 32]⟩
abbrev S1x16 : Shape := ⟨2, ![1, 16]⟩
abbrev S100000x16 : Shape := ⟨2, ![100000, 16]⟩
abbrev S5000x16 : Shape := ⟨2, ![5000, 16]⟩

abbrev nBuf : Space → Nat
  | .hbm => 93
  | .vmem => 27
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x32, .f32⟩
  | .hbm, ⟨4, _⟩ => ⟨S128x32, .f32⟩
  | .hbm, ⟨5, _⟩ => ⟨S32, .f32⟩
  | .hbm, ⟨6, _⟩ => ⟨S32x32, .f32⟩
  | .hbm, ⟨7, _⟩ => ⟨S32x32, .f32⟩
  | .hbm, ⟨8, _⟩ => ⟨S32, .f32⟩
  | .hbm, ⟨9, _⟩ => ⟨S32x16, .f32⟩
  | .hbm, ⟨10, _⟩ => ⟨S32x16, .f32⟩
  | .hbm, ⟨11, _⟩ => ⟨S16, .f32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S1x32, .f32⟩
  | .hbm, ⟨38, _⟩ => ⟨S100000x32, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x32, .f32⟩
  | .hbm, ⟨48, _⟩ => ⟨S_, .f32⟩
  | .hbm, ⟨49, _⟩ => ⟨S100000x32, .f32⟩
  | .hbm, ⟨50, _⟩ => ⟨S1600000x1, .i32⟩
  | .hbm, ⟨51, _⟩ => ⟨S100000x32, .f32⟩
  | .hbm, ⟨52, _⟩ => ⟨S_, .f32⟩
  | .hbm, ⟨53, _⟩ => ⟨S1600000, .f32⟩
  | .hbm, ⟨54, _⟩ => ⟨S_, .f32⟩
  | .hbm, ⟨55, _⟩ => ⟨S100000, .f32⟩
  | .hbm, ⟨56, _⟩ => ⟨S1600000x1, .i32⟩
  | .hbm, ⟨57, _⟩ => ⟨S100000, .f32⟩
  | .hbm, ⟨58, _⟩ => ⟨S_, .f32⟩
  | .hbm, ⟨59, _⟩ => ⟨S100000, .f32⟩
  | .hbm, ⟨60, _⟩ => ⟨S100000, .f32⟩
  | .hbm, ⟨61, _⟩ => ⟨S100000x1, .f32⟩
  | .hbm, ⟨62, _⟩ => ⟨S100000x32, .f32⟩
  | .hbm, ⟨63, _⟩ => ⟨S100000x32, .f32⟩
  | .hbm, ⟨64, _⟩ => ⟨S1x32, .f32⟩
  | .hbm, ⟨65, _⟩ => ⟨S100000x32, .f32⟩
  | .hbm, ⟨66, _⟩ => ⟨S_, .i32⟩
  | .hbm, ⟨67, _⟩ => ⟨S1600000, .i32⟩
  | .hbm, ⟨68, _⟩ => ⟨S1600000, .i1⟩
  | .hbm, ⟨69, _⟩ => ⟨S_, .i32⟩
  | .hbm, ⟨70, _⟩ => ⟨S1600000, .i32⟩
  | .hbm, ⟨71, _⟩ => ⟨S1600000, .i32⟩
  | .hbm, ⟨72, _⟩ => ⟨S1600000, .i32⟩
  | .hbm, ⟨73, _⟩ => ⟨S1600000x1, .i32⟩
  | .hbm, ⟨74, _⟩ => ⟨S1600000x32, .f32⟩
  | .hbm, ⟨75, _⟩ => ⟨S_, .f32⟩
  | .hbm, ⟨76, _⟩ => ⟨S100000x32, .f32⟩
  | .hbm, ⟨77, _⟩ => ⟨S1600000x1, .i32⟩
  | .hbm, ⟨78, _⟩ => ⟨S100000x32, .f32⟩
  | .hbm, ⟨79, _⟩ => ⟨S_, .f32⟩
  | .hbm, ⟨80, _⟩ => ⟨S1600000, .f32⟩
  | .hbm, ⟨81, _⟩ => ⟨S_, .f32⟩
  | .hbm, ⟨82, _⟩ => ⟨S100000, .f32⟩
  | .hbm, ⟨83, _⟩ => ⟨S1600000x1, .i32⟩
  | .hbm, ⟨84, _⟩ => ⟨S100000, .f32⟩
  | .hbm, ⟨85, _⟩ => ⟨S_, .f32⟩
  | .hbm, ⟨86, _⟩ => ⟨S100000, .f32⟩
  | .hbm, ⟨87, _⟩ => ⟨S100000, .f32⟩
  | .hbm, ⟨88, _⟩ => ⟨S100000x1, .f32⟩
  | .hbm, ⟨89, _⟩ => ⟨S100000x32, .f32⟩
  | .hbm, ⟨90, _⟩ => ⟨S100000x32, .f32⟩
  | .hbm, ⟨91, _⟩ => ⟨S1x16, .f32⟩
  | .hbm, ⟨92, _⟩ => ⟨S100000x16, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x32, .f32⟩
  | .local _ .vmem, ⟨5, _⟩ => ⟨S128x32, .f32⟩
  | .local _ .vmem, ⟨6, _⟩ => ⟨S1x32, .f32⟩
  | .local _ .vmem, ⟨7, _⟩ => ⟨S5000x32, .f32⟩
  | .local _ .vmem, ⟨8, _⟩ => ⟨S5000x32, .f32⟩
  | .local _ .vmem, ⟨9, _⟩ => ⟨S5000x32, .f32⟩
  | .local _ .vmem, ⟨10, _⟩ => ⟨S5000x32, .f32⟩
  | .local _ .vmem, ⟨11, _⟩ => ⟨S5000x32, .f32⟩
  | .local _ .vmem, ⟨12, _⟩ => ⟨S5000x32, .f32⟩
  | .local _ .vmem, ⟨13, _⟩ => ⟨S32x32, .f32⟩
  | .local _ .vmem, ⟨14, _⟩ => ⟨S32x32, .f32⟩
  | .local _ .vmem, ⟨15, _⟩ => ⟨S1x32, .f32⟩
  | .local _ .vmem, ⟨16, _⟩ => ⟨S5000x32, .f32⟩
  | .local _ .vmem, ⟨17, _⟩ => ⟨S5000x32, .f32⟩
  | .local _ .vmem, ⟨18, _⟩ => ⟨S5000x32, .f32⟩
  | .local _ .vmem, ⟨19, _⟩ => ⟨S5000x32, .f32⟩
  | .local _ .vmem, ⟨20, _⟩ => ⟨S5000x32, .f32⟩
  | .local _ .vmem, ⟨21, _⟩ => ⟨S5000x32, .f32⟩
  | .local _ .vmem, ⟨22, _⟩ => ⟨S32x16, .f32⟩
  | .local _ .vmem, ⟨23, _⟩ => ⟨S32x16, .f32⟩
  | .local _ .vmem, ⟨24, _⟩ => ⟨S1x16, .f32⟩
  | .local _ .vmem, ⟨25, _⟩ => ⟨S5000x16, .f32⟩
  | .local _ .vmem, ⟨26, _⟩ => ⟨S5000x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_3 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c_4 : Ref sig .tc := ⟨.hbm, 39, rfl⟩
abbrev main_v21 : Ref sig .tc := ⟨.hbm, 40, rfl⟩
abbrev main_v22 : Ref sig .tc := ⟨.hbm, 41, rfl⟩
abbrev main_c_5 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_6 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_7 : Ref sig .tc := ⟨.hbm, 52, rfl⟩
abbrev main_v31 : Ref sig .tc := ⟨.hbm, 53, rfl⟩
abbrev main_cst_8 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_9 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_c_10 : Ref sig .tc := ⟨.hbm, 66, rfl⟩
abbrev main_v42 : Ref sig .tc := ⟨.hbm, 67, rfl⟩
abbrev main_v43 : Ref sig .tc := ⟨.hbm, 68, rfl⟩
abbrev main_c_11 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_12 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_13 : Ref sig .tc := ⟨.hbm, 79, rfl⟩
abbrev main_v52 : Ref sig .tc := ⟨.hbm, 80, rfl⟩
abbrev main_cst_14 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_15 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S32x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S32x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x16 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x16 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S32_S1x32 : S32.ShapeCasts S1x32
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x32_S128x32_0_0 : ∀ a, (![0, 0] : Fin 2 → Nat) a + S128x32.size a ≤ S128x32.size a
  h_S128x32 : 0 < S128x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  shapeCasts_S5000x32_S5000x32 : S5000x32.ShapeCasts S5000x32
  inb_S32x32_S32x32_0_0 : ∀ a, (![0, 0] : Fin 2 → Nat) a + S32x32.size a ≤ S32x32.size a
  h_S32x32 : 0 < S32x32.numel
  shapeCasts_S16_S1x16 : S16.ShapeCasts S1x16
  inb_S32x16_S32x16_0_0 : ∀ a, (![0, 0] : Fin 2 → Nat) a + S32x16.size a ≤ S32x16.size a
  h_S32x16 : 0 < S32x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S5000x16_S5000x16_0_0 : ∀ a, (![0, 0] : Fin 2 → Nat) a + S5000x16.size a ≤ S5000x16.size a
  h_S5000x16 : 0 < S5000x16.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S5000x128_S128x32_S5000x32_1_0_0_1_n_n_wf : DotDims.WF S5000x128 S128x32 S5000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S5000x32_S32x32_S5000x32_1_0_0_1_n_n_wf : DotDims.WF S5000x32 S32x32 S5000x32 [1] [0] [0] [1] [] []
  dot_S5000x32_S32x16_S5000x16_1_0_0_1_n_n_wf : DotDims.WF S5000x32 S32x16 S5000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x32.size a ≤ S128x32.size a
  hwx0_2 : ∀ i : grid0.Coords, EltTy.bits .f32 = 32 ∨ (Rect.block (s := S128x32) S128x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x32.size a ≤ S128x32.size a
  hwx0_3 : ∀ i : grid0.Coords, EltTy.bits .f32 = 32 ∨ (Rect.block (s := S128x32) S128x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x32.size a ≤ S100000x32.size a
  hwx0_5 : ∀ i : grid0.Coords, EltTy.bits .f32 = 32 ∨ (Rect.block (s := S100000x32) S5000x32.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x32.size a ≤ S100000x32.size a
  hwx1_1 : ∀ i : grid1.Coords, EltTy.bits .f32 = 32 ∨ (Rect.block (s := S100000x32) S5000x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x32.size a ≤ S32x32.size a
  hwx1_2 : ∀ i : grid1.Coords, EltTy.bits .f32 = 32 ∨ (Rect.block (s := S32x32) S32x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x32.size a ≤ S32x32.size a
  hwx1_3 : ∀ i : grid1.Coords, EltTy.bits .f32 = 32 ∨ (Rect.block (s := S32x32) S32x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x32.size a ≤ S1x32.size a
  hwx1_4 : ∀ i : grid1.Coords, EltTy.bits .f32 = 32 ∨ (Rect.block (s := S1x32) S1x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x32.size a ≤ S100000x32.size a
  hwx1_5 : ∀ i : grid1.Coords, EltTy.bits .f32 = 32 ∨ (Rect.block (s := S100000x32) S5000x32.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x32.size a ≤ S100000x32.size a
  hwx2_0 : ∀ i : grid2.Coords, EltTy.bits .f32 = 32 ∨ (Rect.block (s := S100000x32) S5000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x32.size a ≤ S100000x32.size a
  hwx2_1 : ∀ i : grid2.Coords, EltTy.bits .f32 = 32 ∨ (Rect.block (s := S100000x32) S5000x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32x16.size a ≤ S32x16.size a
  hwx2_2 : ∀ i : grid2.Coords, EltTy.bits .f32 = 32 ∨ (Rect.block (s := S32x16) S32x16.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32x16.size a ≤ S32x16.size a
  hwx2_3 : ∀ i : grid2.Coords, EltTy.bits .f32 = 32 ∨ (Rect.block (s := S32x16) S32x16.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x16.size a ≤ S1x16.size a
  hwx2_4 : ∀ i : grid2.Coords, EltTy.bits .f32 = 32 ∨ (Rect.block (s := S1x16) S1x16.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x16.size a ≤ S100000x16.size a
  hwx2_5 : ∀ i : grid2.Coords, EltTy.bits .f32 = 32 ∨ (Rect.block (s := S100000x16) S5000x16.size (cc2_transform_5 i) (hinb2_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x32_S5000x32_1_0_0_1_n_n : DotDims S5000x128 S128x32 S5000x32 where
  lhsContracting := [1]
  rhsContracting := [0]
  lhsNonContracting := [0]
  rhsNonContracting := [1]
  lhsBatch := []
  rhsBatch := []
  wf := dot_S5000x128_S128x32_S5000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S5000x32_S32x32_S5000x32_1_0_0_1_n_n : DotDims S5000x32 S32x32 S5000x32 where
  lhsContracting := [1]
  rhsContracting := [0]
  lhsNonContracting := [0]
  rhsNonContracting := [1]
  lhsBatch := []
  rhsBatch := []
  wf := dot_S5000x32_S32x32_S5000x32_1_0_0_1_n_n_wf
def dot_S5000x32_S32x16_S5000x16_1_0_0_1_n_n : DotDims S5000x32 S32x16 S5000x16 where
  lhsContracting := [1]
  rhsContracting := [0]
  lhsNonContracting := [0]
  rhsNonContracting := [1]
  lhsBatch := []
  rhsBatch := []
  wf := dot_S5000x32_S32x16_S5000x16_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S5000x32.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v20) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S5000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S32x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S32x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S1x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S5000x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v41) S5000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v60) S5000x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S32x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S32x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v61) S1x16.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v62) S5000x16.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x32 : Shape := ⟨2, ![128, 32]⟩
abbrev S32 : Shape := ⟨1, ![32]⟩
abbrev S32x32 : Shape := ⟨2, ![32, 32]⟩
abbrev S32x16 : Shape := ⟨2, ![32, 16]⟩
abbrev S16 : Shape := ⟨1, ![16]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S100000x32 : Shape := ⟨2, ![100000, 32]⟩
abbrev S1x32 : Shape := ⟨2, ![1, 32]⟩
abbrev S1600000x32 : Shape := ⟨2, ![1600000, 32]⟩
abbrev S100000x16 : Shape := ⟨2, ![100000, 16]⟩
abbrev S1x16 : Shape := ⟨2, ![1, 16]⟩

abbrev nBuf : Space → Nat
  | .hbm => 111
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x32, .f32⟩
  | .hbm, ⟨4, _⟩ => ⟨S128x32, .f32⟩
  | .hbm, ⟨5, _⟩ => ⟨S32, .f32⟩
  | .hbm, ⟨6, _⟩ => ⟨S32x32, .f32⟩
  | .hbm, ⟨7, _⟩ => ⟨S32x32, .f32⟩
  | .hbm, ⟨8, _⟩ => ⟨S32, .f32⟩
  | .hbm, ⟨9, _⟩ => ⟨S32x16, .f32⟩
  | .hbm, ⟨10, _⟩ => ⟨S32x16, .f32⟩
  | .hbm, ⟨11, _⟩ => ⟨S16, .f32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S100000x32, .f32⟩
  | .hbm, ⟨38, _⟩ => ⟨S100000x32, .f32⟩
  | .hbm, ⟨39, _⟩ => ⟨S100000x32, .f32⟩
  | .hbm, ⟨40, _⟩ => ⟨S1x32, .f32⟩
  | .hbm, ⟨41, _⟩ => ⟨S100000x32, .f32⟩
  | .hbm, ⟨42, _⟩ => ⟨S100000x32, .f32⟩
  | .hbm, ⟨43, _⟩ => ⟨S_, .f32⟩
  | .hbm, ⟨44, _⟩ => ⟨S100000x32, .f32⟩
  | .hbm, ⟨45, _⟩ => ⟨S100000x32, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x32, .f32⟩
  | .hbm, ⟨55, _⟩ => ⟨S_, .f32⟩
  | .hbm, ⟨56, _⟩ => ⟨S100000x32, .f32⟩
  | .hbm, ⟨57, _⟩ => ⟨S1600000x1, .i32⟩
  | .hbm, ⟨58, _⟩ => ⟨S100000x32, .f32⟩
  | .hbm, ⟨59, _⟩ => ⟨S_, .f32⟩
  | .hbm, ⟨60, _⟩ => ⟨S1600000, .f32⟩
  | .hbm, ⟨61, _⟩ => ⟨S_, .f32⟩
  | .hbm, ⟨62, _⟩ => ⟨S100000, .f32⟩
  | .hbm, ⟨63, _⟩ => ⟨S1600000x1, .i32⟩
  | .hbm, ⟨64, _⟩ => ⟨S100000, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x32, .f32⟩
  | .hbm, ⟨70, _⟩ => ⟨S100000x32, .f32⟩
  | .hbm, ⟨71, _⟩ => ⟨S100000x32, .f32⟩
  | .hbm, ⟨72, _⟩ => ⟨S100000x32, .f32⟩
  | .hbm, ⟨73, _⟩ => ⟨S100000x32, .f32⟩
  | .hbm, ⟨74, _⟩ => ⟨S1x32, .f32⟩
  | .hbm, ⟨75, _⟩ => ⟨S100000x32, .f32⟩
  | .hbm, ⟨76, _⟩ => ⟨S100000x32, .f32⟩
  | .hbm, ⟨77, _⟩ => ⟨S_, .f32⟩
  | .hbm, ⟨78, _⟩ => ⟨S100000x32, .f32⟩
  | .hbm, ⟨79, _⟩ => ⟨S100000x32, .f32⟩
  | .hbm, ⟨80, _⟩ => ⟨S_, .i32⟩
  | .hbm, ⟨81, _⟩ => ⟨S1600000, .i32⟩
  | .hbm, ⟨82, _⟩ => ⟨S1600000, .i1⟩
  | .hbm, ⟨83, _⟩ => ⟨S_, .i32⟩
  | .hbm, ⟨84, _⟩ => ⟨S1600000, .i32⟩
  | .hbm, ⟨85, _⟩ => ⟨S1600000, .i32⟩
  | .hbm, ⟨86, _⟩ => ⟨S1600000, .i32⟩
  | .hbm, ⟨87, _⟩ => ⟨S1600000x1, .i32⟩
  | .hbm, ⟨88, _⟩ => ⟨S1600000x32, .f32⟩
  | .hbm, ⟨89, _⟩ => ⟨S_, .f32⟩
  | .hbm, ⟨90, _⟩ => ⟨S100000x32, .f32⟩
  | .hbm, ⟨91, _⟩ => ⟨S1600000x1, .i32⟩
  | .hbm, ⟨92, _⟩ => ⟨S100000x32, .f32⟩
  | .hbm, ⟨93, _⟩ => ⟨S_, .f32⟩
  | .hbm, ⟨94, _⟩ => ⟨S1600000, .f32⟩
  | .hbm, ⟨95, _⟩ => ⟨S_, .f32⟩
  | .hbm, ⟨96, _⟩ => ⟨S100000, .f32⟩
  | .hbm, ⟨97, _⟩ => ⟨S1600000x1, .i32⟩
  | .hbm, ⟨98, _⟩ => ⟨S100000, .f32⟩
  | .hbm, ⟨99, _⟩ => ⟨S_, .f32⟩
  | .hbm, ⟨100, _⟩ => ⟨S100000, .f32⟩
  | .hbm, ⟨101, _⟩ => ⟨S100000, .f32⟩
  | .hbm, ⟨102, _⟩ => ⟨S100000x1, .f32⟩
  | .hbm, ⟨103, _⟩ => ⟨S100000x32, .f32⟩
  | .hbm, ⟨104, _⟩ => ⟨S100000x32, .f32⟩
  | .hbm, ⟨105, _⟩ => ⟨S100000x16, .f32⟩
  | .hbm, ⟨106, _⟩ => ⟨S100000x16, .f32⟩
  | .hbm, ⟨107, _⟩ => ⟨S100000x16, .f32⟩
  | .hbm, ⟨108, _⟩ => ⟨S1x16, .f32⟩
  | .hbm, ⟨109, _⟩ => ⟨S100000x16, .f32⟩
  | .hbm, ⟨110, _⟩ => ⟨S100000x16, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_3 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_call0_cst : Ref sig .tc := ⟨.hbm, 43, rfl⟩
abbrev main_call0_v0 : Ref sig .tc := ⟨.hbm, 44, rfl⟩
abbrev main_v25 : Ref sig .tc := ⟨.hbm, 45, rfl⟩
abbrev main_c_4 : Ref sig .tc := ⟨.hbm, 46, rfl⟩
abbrev main_v26 : Ref sig .tc := ⟨.hbm, 47, rfl⟩
abbrev main_v27 : Ref sig .tc := ⟨.hbm, 48, rfl⟩
abbrev main_c_5 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_6 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_7 : Ref sig .tc := ⟨.hbm, 59, rfl⟩
abbrev main_v36 : Ref sig .tc := ⟨.hbm, 60, rfl⟩
abbrev main_cst_8 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_9 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_call1_cst : Ref sig .tc := ⟨.hbm, 77, rfl⟩
abbrev main_call1_v0 : Ref sig .tc := ⟨.hbm, 78, rfl⟩
abbrev main_v51 : Ref sig .tc := ⟨.hbm, 79, rfl⟩
abbrev main_c_10 : Ref sig .tc := ⟨.hbm, 80, rfl⟩
abbrev main_v52 : Ref sig .tc := ⟨.hbm, 81, rfl⟩
abbrev main_v53 : Ref sig .tc := ⟨.hbm, 82, rfl⟩
abbrev main_c_11 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_12 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_13 : Ref sig .tc := ⟨.hbm, 93, rfl⟩
abbrev main_v62 : Ref sig .tc := ⟨.hbm, 94, rfl⟩
abbrev main_cst_14 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_15 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x32_S100000x32_1_0_0_1_n_n_wf : DotDims.WF S100000x128 S128x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S100000x32_S32x32_S100000x32_1_0_0_1_n_n_wf : DotDims.WF S100000x32 S32x32 S100000x32 [1] [0] [0] [1] [] []
  dot_S100000x32_S32x16_S100000x16_1_0_0_1_n_n_wf : DotDims.WF S100000x32 S32x16 S100000x16 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf

class Facts : Prop extends Facts₀ where

variable [Facts]
-- ==== Proof.KernelRun.lean ====
/-
  The idealized kernel's program, run: every weakly fair execution from a memory with zero counters ends, nothing
  faulting, with the result array holding what the third layer's twenty row blocks left in it and every argument array
  as it was. The program is three tiled layers among stretches of host operations; the run is the library's theorem for
  such a sequence of segments over the generated segment records, read at the result's buffer as well as at the arguments'.
-/
import proofs.«113020_j37082747633734_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run with the result named: the last region's output array after its write-backs, the arguments unchanged. -/
theorem run : θ_run defs (onTc (τ := τ) (main (F := F))) ⟨m, fun _ => 0, ρ⟩ (fun r => ∀ c : Dev nD,
      r.2.mem ((c.tc : Thread nD τ).loc main_v62) = (dat2 (V5 m ρ) c).arrAt 5 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨(h c _ (mem_uc main_v62 (by decide))).trans (W6_arr m ρ c 5),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c)⟩)

end Cert.KernelIdeal.Whole

end
-- ==== Proof.LibPlainDot.lean ====
/-
  A matrix product into a zero accumulator, read at coordinates.

  For a dot of a `[M, K]` matrix with a `[K, N]` matrix whose dimension numbers contract the left operand's second axis with
  the right operand's first and keep the other two in order, the product accumulated into the zero splat is, at `(p, c)`,

      ∑ k : Fin K, l (p, k) · r (k, c)

  on the extended reals. The dimension record enters only through four facts about its operand indices — the left index at
  output index `i` and contraction position `q` is `(i 0, q)`, the right one `(q, i 1)` — which a concrete record proves by
  unfolding; with them the sum over the record's one-axis contraction shape is re-indexed over `Fin K`.
-/
import Idealize.ShloMosaic.PureOps.Ideal.Laws
import Idealize.ShloMosaic.Lib.ValueIdx

namespace Cert.Lib.PlainDot

open Idealize.ShloMosaic Idealize.ShloMosaic.ValueIdx

/-- The product of an `[M, K]` and a `[K, N]` matrix into the zero splat at `(p, c)`: the sum over `k` of `l (p, k) · r (k, c)`. -/
theorem matmul_zero_ix2 {M K N : ℕ} {φ₁ φ₂ : FTy}
    (D : DotDims ⟨2, ![M, K]⟩ ⟨2, ![K, N]⟩ ⟨2, ![M, N]⟩) (hr : D.contr.rank = 1) (hs : D.contr.size ⟨0, by omega⟩ = K)
    (hl0 : ∀ (i : (⟨2, ![M, N]⟩ : Shape).Idx) (q : D.contr.Idx), (D.lhsIdx i q (0 : Fin 2)).val = (i (0 : Fin 2)).val)
    (hl1 : ∀ (i : (⟨2, ![M, N]⟩ : Shape).Idx) (q : D.contr.Idx), (D.lhsIdx i q (1 : Fin 2)).val = (q ⟨0, by omega⟩).val)
    (hr0 : ∀ (i : (⟨2, ![M, N]⟩ : Shape).Idx) (q : D.contr.Idx), (D.rhsIdx i q (0 : Fin 2)).val = (q ⟨0, by omega⟩).val)
    (hr1 : ∀ (i : (⟨2, ![M, N]⟩ : Shape).Idx) (q : D.contr.Idx), (D.rhsIdx i q (1 : Fin 2)).val = (i (1 : Fin 2)).val)
    (prec : Option ContractPrecision) (l : FVec Ideal ⟨2, ![M, K]⟩ φ₁) (r : FVec Ideal ⟨2, ![K, N]⟩ φ₂) (p : Fin M) (c : Fin N) :
    FloatOps.matmul D prec l r (constant (F := Ideal) ⟨2, ![M, N]⟩ .f32 0x00000000#32) (ix2 p c)
      = ∑ k : Fin K, l (ix2 p k) * r (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.Lib.PlainDot
-- ==== Proof.Spec.lean ====
/-
  One graph layer with mean aggregation, as a function of its arrays.

  For node features `h : [N, K]`, aggregated neighbour features `a : [N, K]`, two weight matrices `ws, wn : [K, M]`
  and a bias row `b : [1, M]`, the layer's entry at node `p` and output feature `c` is

      (∑ k, h (p, k) · ws (k, c)) + (∑ k, a (p, k) · wn (k, c)) + b (0, c)

  on the extended reals: the node's own features and its neighbours' mean, each through its matrix, plus the bias.
  The first two layers clamp the entry below at zero; the last does not.
-/
import Idealize.ShloMosaic.PureOps.Ideal
import Idealize.ShloMosaic.Lib.ValueIdx

noncomputable section

namespace Cert.Sage

open Idealize.ShloMosaic Idealize.ShloMosaic.ValueIdx

/-- The layer's entry at node `p`, output feature `c`. -/
def affineAt {N K M : ℕ} (h a : FVec Ideal ⟨2, ![N, K]⟩ .f32) (ws wn : FVec Ideal ⟨2, ![K, M]⟩ .f32)
    (b : FVec Ideal ⟨2, ![1, M]⟩ .f32) (p : Fin N) (c : Fin M) : EReal :=
  (∑ k : Fin K, h (ix2 p k) * ws (ix2 k c)) + (∑ k : Fin K, a (ix2 p k) * wn (ix2 k c)) + b (ix2 (0 : Fin 1) c)

/-- The layer without a clamp: the whole `[N, M]` array. -/
def affine {N K M : ℕ} (h a : FVec Ideal ⟨2, ![N, K]⟩ .f32) (ws wn : FVec Ideal ⟨2, ![K, M]⟩ .f32)
    (b : FVec Ideal ⟨2, ![1, M]⟩ .f32) : FVec Ideal ⟨2, ![N, M]⟩ .f32 :=
  fun i => affineAt h a ws wn b (i 0) (i 1)

/-- The layer clamped below at zero (the zero being the float word `0x00000000`). -/
def affineRelu {N K M : ℕ} (h a : FVec Ideal ⟨2, ![N, K]⟩ .f32) (ws wn : FVec Ideal ⟨2, ![K, M]⟩ .f32)
    (b : FVec Ideal ⟨2, ![1, M]⟩ .f32) : FVec Ideal ⟨2, ![N, M]⟩ .f32 :=
  fun i => max (affineAt h a ws wn b (i 0) (i 1)) (Ideal.ofBits .f32 0x00000000#32)

theorem affine_ix2 {N K M : ℕ} (h a : FVec Ideal ⟨2, ![N, K]⟩ .f32) (ws wn : FVec Ideal ⟨2, ![K, M]⟩ .f32)
    (b : FVec Ideal ⟨2, ![1, M]⟩ .f32) (p : Fin N) (c : Fin M) :
    affine h a ws wn b (ix2 p c) = affineAt h a ws wn b p c := rfl

theorem affineRelu_ix2 {N K M : ℕ} (h a : FVec Ideal ⟨2, ![N, K]⟩ .f32) (ws wn : FVec Ideal ⟨2, ![K, M]⟩ .f32)
    (b : FVec Ideal ⟨2, ![1, M]⟩ .f32) (p : Fin N) (c : Fin M) :
    affineRelu h a ws wn b (ix2 p c) = max (affineAt h a ws wn b p c) (Ideal.ofBits .f32 0x00000000#32) := rfl

/-- Two entries agree when the arrays agree on the one row, the one column and the one bias entry the entry reads. -/
theorem affineAt_congr {N N' K M : ℕ} (h a : FVec Ideal ⟨2, ![N, K]⟩ .f32) (h' a' : FVec Ideal ⟨2, ![N', K]⟩ .f32)
    (ws wn ws' wn' : FVec Ideal ⟨2, ![K, M]⟩ .f32) (b b' : FVec Ideal ⟨2, ![1, M]⟩ .f32) (p : Fin N) (p' : Fin N') (c : Fin M)
    (hh : ∀ k : Fin K, h (ix2 p k) = h' (ix2 p' k)) (ha : ∀ k : Fin K, a (ix2 p k) = a' (ix2 p' k))
    (hws : ∀ k : Fin K, ws (ix2 k c) = ws' (ix2 k c)) (hwn : ∀ k : Fin K, wn (ix2 k c) = wn' (ix2 k c))
    (hb : b (ix2 (0 : Fin 1) c) = b' (ix2 (0 : Fin 1) c)) :
    affineAt h a ws wn b p c = affineAt h' a' ws' wn' b' p' c := by
  unfold affineAt
  simp only [hh, ha, hws, hwn, hb]

/-- The layer reads its bias array only along the row `(0, ·)`. -/
theorem affineRelu_bias {N K M : ℕ} (h a : FVec Ideal ⟨2, ![N, K]⟩ .f32) (ws wn : FVec Ideal ⟨2, ![K, M]⟩ .f32)
    (b b' : FVec Ideal ⟨2, ![1, M]⟩ .f32) (hb : ∀ c : Fin M, b (ix2 (0 : Fin 1) c) = b' (ix2 (0 : Fin 1) c)) :
    affineRelu h a ws wn b = affineRelu h a ws wn b' := by
  funext i
  obtain ⟨p, q, rfl⟩ : ∃ (p : Fin N) (q : Fin M), i = ix2 p q := ⟨i 0, i 1, eq_ix2 i⟩
  rw [affineRelu_ix2, affineRelu_ix2,
    affineAt_congr h a h a ws wn ws wn b b' p p q (fun _ => rfl) (fun _ => rfl) (fun _ => rfl) (fun _ => rfl) (hb q)]

theorem affine_bias {N K M : ℕ} (h a : FVec Ideal ⟨2, ![N, K]⟩ .f32) (ws wn : FVec Ideal ⟨2, ![K, M]⟩ .f32)
    (b b' : FVec Ideal ⟨2, ![1, M]⟩ .f32) (hb : ∀ c : Fin M, b (ix2 (0 : Fin 1) c) = b' (ix2 (0 : Fin 1) c)) :
    affine h a ws wn b = affine h a ws wn b' := by
  funext i
  obtain ⟨p, q, rfl⟩ : ∃ (p : Fin N) (q : Fin M), i = ix2 p q := ⟨i 0, i 1, eq_ix2 i⟩
  rw [affine_ix2, affine_ix2,
    affineAt_congr h a h a ws wn ws wn b b' p p q (fun _ => rfl) (fun _ => rfl) (fun _ => rfl) (fun _ => rfl) (hb q)]

end Cert.Sage

end
-- ==== Proof.Body0.lean ====
/-
  Layer 1's body at an entry of its row block.

  One grid point loads a block of 5000 rows of the node features and of the aggregated neighbour features, both weight
  matrices whole and the bias row, multiplies the two blocks by their matrices into zero accumulators, adds the products and
  the bias row broadcast over the rows, clamps at zero and stores the block. Read at row `p`, column `c` of the block this is
  the layer's entry of the loaded arrays: a change of float format is the identity on the extended reals, and a product into
  a zero accumulator is the plain sum over the contracted axis.
-/
import proofs.«113020_j37082747633734_1_alg».proof.Proof.Gen.KernelIdeal.Skeleton
import proofs.«113020_j37082747633734_1_alg».proof.Proof.LibPlainDot
import proofs.«113020_j37082747633734_1_alg».proof.Proof.Spec
import Idealize.ShloMosaic.Lib.Pipeline.Value
import Idealize.ShloMosaic.Lib.ValueIdx
import Idealize.ShloMosaic.Lib.ValueLayout

noncomputable section

namespace Cert.KernelIdeal.Body0

open Cert.KernelIdeal Cert.KernelIdeal.Gen Idealize.ShloMosaic Idealize.ShloMosaic.ValueIdx

/-- The left operand's index at output index `i` and contraction position `q` is `(i 0, q)`, the right one's `(q, i 1)`. -/
theorem lhs_0 (i : S5000x32.Idx) (q : dot_S5000x128_S128x32_S5000x32_1_0_0_1_n_n.contr.Idx) : (dot_S5000x128_S128x32_S5000x32_1_0_0_1_n_n.lhsIdx i q 0).val = (i 0).val := by
  unfold DotDims.lhsIdx
  rw [dif_neg (show ¬(0 : Fin S5000x128.rank) ∈ dot_S5000x128_S128x32_S5000x32_1_0_0_1_n_n.lhsBatch by decide), dif_pos (show (0 : Fin S5000x128.rank) ∈ dot_S5000x128_S128x32_S5000x32_1_0_0_1_n_n.lhsNonContracting by decide)]
  rfl
theorem lhs_1 (i : S5000x32.Idx) (q : dot_S5000x128_S128x32_S5000x32_1_0_0_1_n_n.contr.Idx) : (dot_S5000x128_S128x32_S5000x32_1_0_0_1_n_n.lhsIdx i q 1).val = (q ⟨0, by decide⟩).val :=
  dot_S5000x128_S128x32_S5000x32_1_0_0_1_n_n.lhsIdx_val_of_single rfl i q
theorem rhs_0 (i : S5000x32.Idx) (q : dot_S5000x128_S128x32_S5000x32_1_0_0_1_n_n.contr.Idx) : (dot_S5000x128_S128x32_S5000x32_1_0_0_1_n_n.rhsIdx i q 0).val = (q ⟨0, by decide⟩).val :=
  dot_S5000x128_S128x32_S5000x32_1_0_0_1_n_n.rhsIdx_val_of_single rfl i q
theorem rhs_1 (i : S5000x32.Idx) (q : dot_S5000x128_S128x32_S5000x32_1_0_0_1_n_n.contr.Idx) : (dot_S5000x128_S128x32_S5000x32_1_0_0_1_n_n.rhsIdx i q 1).val = (i 1).val := by
  unfold DotDims.rhsIdx
  rw [dif_neg (show ¬(1 : Fin S128x32.rank) ∈ dot_S5000x128_S128x32_S5000x32_1_0_0_1_n_n.rhsBatch by decide), dif_pos (show (1 : Fin S128x32.rank) ∈ dot_S5000x128_S128x32_S5000x32_1_0_0_1_n_n.rhsNonContracting by decide)]
  rfl

/-- A block product into the zero accumulator at `(p, c)`: the sum over the 128 contracted positions. -/
theorem product_apply {φ₁ φ₂ : FTy} (l : FVec Ideal S5000x128 φ₁) (r : FVec Ideal S128x32 φ₂) (p : Fin 5000) (c : Fin 32) :
    matmul dot_S5000x128_S128x32_S5000x32_1_0_0_1_n_n none l r (constant (F := Ideal) S5000x32 .f32 0x00000000#32) (ix2 p c)
      = ∑ k : Fin 128, l (ix2 p k) * r (ix2 k c) :=
  Cert.Lib.PlainDot.matmul_zero_ix2 dot_S5000x128_S128x32_S5000x32_1_0_0_1_n_n rfl rfl lhs_0 lhs_1 rhs_0 rhs_1 none l r p c

/-- The stored block at `(p, c)` is the layer's entry of the loaded blocks. -/
theorem payload_apply (x0 x1 : Vec Ideal S5000x128 .f32) (x2 x3 : Vec Ideal S128x32 .f32) (x4 : Vec Ideal S1x32 .f32)
    (p : Fin 5000) (c : Fin 32) :
    k0_pay1 (F := Ideal) x0 x1 x2 x3 x4 (ix2 p c) = max (Cert.Sage.affineAt x0 x1 x2 x3 x4 p c) (Ideal.ofBits .f32 0x00000000#32) := by
  unfold k0_pay1 Cert.Sage.affineAt
  simp only [shapeCast_self]
  rw [maximumf_apply, broadcast_apply]
  refine congrArg (fun z => max z _) ?_
  rw [addf_apply, addf_apply, product_apply, product_apply, broadcastTo_1b_ab_apply]
  rfl

end Cert.KernelIdeal.Body0

end
-- ==== Proof.Blocks0.lean ====
/-
  Layer 1's output array after its twenty grid points.

  Point `t` of the grid reads rows `5000·t … 5000·t + 4999` of the node features and of the aggregated features, the two
  weight matrices and the bias row whole, and writes the same rows of the output. So what point `t` writes back is block `t`
  of ONE whole-array function of the arrays the region finds: the clamped layer of Spec.lean. The twenty blocks tile the
  100000 × 32 output (row `r` is in block `r / 5000`), hence the array ends holding that function. Stated for any
  contents `V` of the buffers at the region's entry.
-/
import proofs.«113020_j37082747633734_1_alg».proof.Proof.Gen.KernelIdeal.Frame
import proofs.«113020_j37082747633734_1_alg».proof.Proof.Body0
import proofs.«113020_j37082747633734_1_alg».proof.Proof.Spec
import Idealize.ShloMosaic.Lib.Pipeline.Value
import Idealize.ShloMosaic.Lib.ValueIdx

set_option maxRecDepth 16384

noncomputable section

namespace Cert.KernelIdeal.Layer0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps, decided over the grid: the two feature windows and the output move down one block of rows per
    point; the weights and the bias stay at block (0, 0). -/
theorem index_maps : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of point `t`'s block of the node features is row `5000·t + p` of the array. -/
theorem features_apply (c : Dev nD) (t : Fin cfg0.N) (p : Fin 5000) (k : Fin 128) (hp : t.val * 5000 + p.val < 100000) :
    (iblk0 V c 0 t : Vec Ideal S5000x128 .f32) (ix2 p k) = (V c main_arg0 : Vec Ideal S100000x128 .f32) (ix2 ⟨t.val * 5000 + p.val, hp⟩ k) := by
  obtain ⟨e0, e1, -⟩ := index_maps t
  unfold iblk0
  rw [View.read_apply]
  show V c main_arg0 _ = V c main_arg0 _
  congr 1
  funext a
  apply Fin.ext
  match a with
  | ⟨0, _⟩ => show win0_0.index t (0 : Fin 2) * 5000 + 1 * p.val = t.val * 5000 + p.val; rw [e0]; omega
  | ⟨1, _⟩ => show win0_0.index t (1 : Fin 2) * 128 + 1 * k.val = k.val; rw [e1]; omega

/-- The same for the aggregated features. -/
theorem aggregated_apply (c : Dev nD) (t : Fin cfg0.N) (p : Fin 5000) (k : Fin 128) (hp : t.val * 5000 + p.val < 100000) :
    (iblk0 V c 1 t : Vec Ideal S5000x128 .f32) (ix2 p k) = (V c main_v18 : Vec Ideal S100000x128 .f32) (ix2 ⟨t.val * 5000 + p.val, hp⟩ k) := by
  obtain ⟨-, -, e0, e1, -⟩ := index_maps t
  unfold iblk0
  rw [View.read_apply]
  show V c main_v18 _ = V c main_v18 _
  congr 1
  funext a
  apply Fin.ext
  match a with
  | ⟨0, _⟩ => show win0_1.index t (0 : Fin 2) * 5000 + 1 * p.val = t.val * 5000 + p.val; rw [e0]; omega
  | ⟨1, _⟩ => show win0_1.index t (1 : Fin 2) * 128 + 1 * k.val = k.val; rw [e1]; omega

/-- Each weight matrix's one block is the matrix. -/
theorem self_weights_apply (c : Dev nD) (t : Fin cfg0.N) (k : Fin 128) (q : Fin 32) :
    (iblk0 V c 2 t : Vec Ideal S128x32 .f32) (ix2 k q) = (V c main_arg3 : Vec Ideal S128x32 .f32) (ix2 k q) := by
  obtain ⟨-, -, -, -, e0, e1, -⟩ := index_maps t
  unfold iblk0
  rw [View.read_apply]
  show V c main_arg3 _ = V c main_arg3 _
  congr 1
  funext a
  apply Fin.ext
  match a with
  | ⟨0, _⟩ => show win0_2.index t (0 : Fin 2) * 128 + 1 * k.val = k.val; rw [e0]; omega
  | ⟨1, _⟩ => show win0_2.index t (1 : Fin 2) * 32 + 1 * q.val = q.val; rw [e1]; omega

theorem neighbour_weights_apply (c : Dev nD) (t : Fin cfg0.N) (k : Fin 128) (q : Fin 32) :
    (iblk0 V c 3 t : Vec Ideal S128x32 .f32) (ix2 k q) = (V c main_arg4 : Vec Ideal S128x32 .f32) (ix2 k q) := by
  obtain ⟨-, -, -, -, -, -, e0, e1, -⟩ := index_maps t
  unfold iblk0
  rw [View.read_apply]
  show V c main_arg4 _ = V c main_arg4 _
  congr 1
  funext a
  apply Fin.ext
  match a with
  | ⟨0, _⟩ => show win0_3.index t (0 : Fin 2) * 128 + 1 * k.val = k.val; rw [e0]; omega
  | ⟨1, _⟩ => show win0_3.index t (1 : Fin 2) * 32 + 1 * q.val = q.val; rw [e1]; omega

/-- The bias row's one block is the row. -/
theorem bias_apply (c : Dev nD) (t : Fin cfg0.N) (q : Fin 32) :
    (iblk0 V c 4 t : Vec Ideal S1x32 .f32) (ix2 (0 : Fin 1) q) = (V c main_v19 : Vec Ideal S1x32 .f32) (ix2 (0 : Fin 1) q) := by
  obtain ⟨-, -, -, -, -, -, -, -, e0, e1, -⟩ := index_maps t
  unfold iblk0
  rw [View.read_apply]
  show V c main_v19 _ = V c main_v19 _
  congr 1
  funext a
  apply Fin.ext
  match a with
  | ⟨0, _⟩ => show win0_4.index t (0 : Fin 2) * 1 + 1 * 0 = 0; rw [e0]
  | ⟨1, _⟩ => show win0_4.index t (1 : Fin 2) * 32 + 1 * q.val = q.val; rw [e1]; omega

/-- WHAT POINT `t` WRITES BACK is block `t` of the layer of the arrays the region finds. -/
theorem flushed_eq (c : Dev nD) (t : Fin cfg0.N) :
    (dat0 V c).flushed 5 t = ((cfg0.win 5).blk t).view.read (Elt Ideal)
      (Cert.Sage.affineRelu (N := 100000) (K := 128) (M := 32) (V c main_arg0) (V c main_v18) (V c main_arg3) (V c main_arg4) (V c main_v19)) := by
  show (cfg0.win 5).cut (grid0.coords t) ((dat0 V c).after 5 t) = _
  rw [after0_5]
  unfold out0_5
  rw [View.canon_unit_zero zero_offsets]
  simp only [View.ld_unit_zero (S := S5000x128) zero_offsets, View.ld_unit_zero (S := S128x32) zero_offsets, View.ld_unit_zero (S := S1x32) zero_offsets]
  obtain ⟨-, -, -, -, -, -, -, -, -, -, e0, e1⟩ := index_maps t
  have hN : t.val < 20 := lt_of_lt_of_eq t.isLt (show cfg0.N = 20 from N_0)
  funext j
  obtain ⟨p, q, rfl⟩ : ∃ (p : Fin 5000) (q : Fin 32), j = ix2 p q := ⟨j 0, j 1, eq_ix2 j⟩
  have hp : t.val * 5000 + p.val < 100000 := by have := p.isLt; omega
  have hemb : ((cfg0.win 5).blk t).view.emb (ix2 p q) = (ix2 (⟨t.val * 5000 + p.val, hp⟩ : Fin 100000) q : S100000x32.Idx) := by
    funext a
    apply Fin.ext
    match a with
    | ⟨0, _⟩ => show win0_5.index t (0 : Fin 2) * 5000 + 1 * p.val = t.val * 5000 + p.val; rw [e0]; omega
    | ⟨1, _⟩ => show win0_5.index t (1 : Fin 2) * 32 + 1 * q.val = q.val; rw [e1]; omega
  refine (Body0.payload_apply (iblk0 V c 0 t) (iblk0 V c 1 t) (iblk0 V c 2 t) (iblk0 V c 3 t) (iblk0 V c 4 t) p q).trans ?_
  rw [View.read_apply, hemb, Cert.Sage.affineRelu_ix2]
  refine congrArg (fun z => max z _) ?_
  exact Cert.Sage.affineAt_congr (iblk0 V c 0 t) (iblk0 V c 1 t) (V c main_arg0) (V c main_v18) (iblk0 V c 2 t) (iblk0 V c 3 t) (V c main_arg3) (V c main_arg4)
    (iblk0 V c 4 t) (V c main_v19) p ⟨t.val * 5000 + p.val, hp⟩ q
    (fun k => features_apply V c t p k hp) (fun k => aggregated_apply V c t p k hp)
    (fun k => self_weights_apply V c t k q) (fun k => neighbour_weights_apply V c t k q) (bias_apply V c t q)

/-- An index of the output array is in point `t`'s block iff each coordinate is in the block's range on its axis. -/
theorem mem_block (t : Fin cfg0.N) (i : S100000x32.Idx) :
    i ∈ ((cfg0.win 5).blk t).view.set ↔ ∀ a : Fin 2, win0_5.index t a * S5000x32.size a ≤ (i a).val ∧ (i a).val < win0_5.index t a * S5000x32.size a + S5000x32.size a := by
  show i ∈ ((View.whole main_v20).slice (win0_5.rect t)).set ↔ _
  rw [View.set_slice_whole, Rect.mem_set_unit]
  exact Iff.rfl

/-- Every index of the output is in the block of the point that owns its row. -/
theorem blocks_cover (i : S100000x32.Idx) : ∃ t : Fin cfg0.N, (cfg0.win 5).flush t = true ∧ i ∈ ((cfg0.win 5).blk t).view.set := by
  have hi0 : (i 0).val < 100000 := (i 0).isLt
  have hi1 : (i 1).val < 32 := (i 1).isLt
  have ht : (i 0).val / 5000 < cfg0.N := by rw [show cfg0.N = 20 from N_0]; omega
  refine ⟨⟨(i 0).val / 5000, ht⟩, flush0_5 _, ?_⟩
  rw [mem_block]
  obtain ⟨-, -, -, -, -, -, -, -, -, -, e0, e1⟩ := index_maps ⟨(i 0).val / 5000, ht⟩
  intro a
  match a with
  | ⟨0, _⟩ =>
    show win0_5.index ⟨(i 0).val / 5000, ht⟩ (0 : Fin 2) * 5000 ≤ (i 0).val ∧ (i 0).val < win0_5.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_5.index ⟨(i 0).val / 5000, ht⟩ (1 : Fin 2) * 32 ≤ (i 1).val ∧ (i 1).val < win0_5.index ⟨(i 0).val / 5000, ht⟩ (1 : Fin 2) * 32 + 32
    rw [e1]; omega

/-- THE ARRAY after the region: the layer of the arrays the region found. -/
theorem final (c : Dev nD) :
    (dat0 V c).arrAt 5 cfg0.N = Cert.Sage.affineRelu (N := 100000) (K := 128) (M := 32) (V c main_arg0) (V c main_v18) (V c main_arg3) (V c main_arg4) (V c main_v19) :=
  (dat0 V c).arrAt_eq_of_cover 5 _ (fun t _ => flushed_eq V c t) blocks_cover

end Cert.KernelIdeal.Layer0

end
-- ==== Proof.Body1.lean ====
/-
  Layer 2's body at an entry of its row block.

  One grid point loads a block of 5000 rows of the node features and of the aggregated neighbour features, both weight
  matrices whole and the bias row, multiplies the two blocks by their matrices into zero accumulators, adds the products and
  the bias row broadcast over the rows, clamps at zero and stores the block. Read at row `p`, column `c` of the block this is
  the layer's entry of the loaded arrays: a change of float format is the identity on the extended reals, and a product into
  a zero accumulator is the plain sum over the contracted axis.
-/
import proofs.«113020_j37082747633734_1_alg».proof.Proof.Gen.KernelIdeal.Skeleton
import proofs.«113020_j37082747633734_1_alg».proof.Proof.LibPlainDot
import proofs.«113020_j37082747633734_1_alg».proof.Proof.Spec
import Idealize.ShloMosaic.Lib.Pipeline.Value
import Idealize.ShloMosaic.Lib.ValueIdx
import Idealize.ShloMosaic.Lib.ValueLayout

noncomputable section

namespace Cert.KernelIdeal.Body1

open Cert.KernelIdeal Cert.KernelIdeal.Gen Idealize.ShloMosaic Idealize.ShloMosaic.ValueIdx

/-- The left operand's index at output index `i` and contraction position `q` is `(i 0, q)`, the right one's `(q, i 1)`. -/
theorem lhs_0 (i : S5000x32.Idx) (q : dot_S5000x32_S32x32_S5000x32_1_0_0_1_n_n.contr.Idx) : (dot_S5000x32_S32x32_S5000x32_1_0_0_1_n_n.lhsIdx i q 0).val = (i 0).val := by
  unfold DotDims.lhsIdx
  rw [dif_neg (show ¬(0 : Fin S5000x32.rank) ∈ dot_S5000x32_S32x32_S5000x32_1_0_0_1_n_n.lhsBatch by decide), dif_pos (show (0 : Fin S5000x32.rank) ∈ dot_S5000x32_S32x32_S5000x32_1_0_0_1_n_n.lhsNonContracting by decide)]
  rfl
theorem lhs_1 (i : S5000x32.Idx) (q : dot_S5000x32_S32x32_S5000x32_1_0_0_1_n_n.contr.Idx) : (dot_S5000x32_S32x32_S5000x32_1_0_0_1_n_n.lhsIdx i q 1).val = (q ⟨0, by decide⟩).val :=
  dot_S5000x32_S32x32_S5000x32_1_0_0_1_n_n.lhsIdx_val_of_single rfl i q
theorem rhs_0 (i : S5000x32.Idx) (q : dot_S5000x32_S32x32_S5000x32_1_0_0_1_n_n.contr.Idx) : (dot_S5000x32_S32x32_S5000x32_1_0_0_1_n_n.rhsIdx i q 0).val = (q ⟨0, by decide⟩).val :=
  dot_S5000x32_S32x32_S5000x32_1_0_0_1_n_n.rhsIdx_val_of_single rfl i q
theorem rhs_1 (i : S5000x32.Idx) (q : dot_S5000x32_S32x32_S5000x32_1_0_0_1_n_n.contr.Idx) : (dot_S5000x32_S32x32_S5000x32_1_0_0_1_n_n.rhsIdx i q 1).val = (i 1).val := by
  unfold DotDims.rhsIdx
  rw [dif_neg (show ¬(1 : Fin S32x32.rank) ∈ dot_S5000x32_S32x32_S5000x32_1_0_0_1_n_n.rhsBatch by decide), dif_pos (show (1 : Fin S32x32.rank) ∈ dot_S5000x32_S32x32_S5000x32_1_0_0_1_n_n.rhsNonContracting by decide)]
  rfl

/-- A block product into the zero accumulator at `(p, c)`: the sum over the 32 contracted positions. -/
theorem product_apply {φ₁ φ₂ : FTy} (l : FVec Ideal S5000x32 φ₁) (r : FVec Ideal S32x32 φ₂) (p : Fin 5000) (c : Fin 32) :
    matmul dot_S5000x32_S32x32_S5000x32_1_0_0_1_n_n none l r (constant (F := Ideal) S5000x32 .f32 0x00000000#32) (ix2 p c)
      = ∑ k : Fin 32, l (ix2 p k) * r (ix2 k c) :=
  Cert.Lib.PlainDot.matmul_zero_ix2 dot_S5000x32_S32x32_S5000x32_1_0_0_1_n_n rfl rfl lhs_0 lhs_1 rhs_0 rhs_1 none l r p c

/-- The stored block at `(p, c)` is the layer's entry of the loaded blocks. -/
theorem payload_apply (x0 x1 : Vec Ideal S5000x32 .f32) (x2 x3 : Vec Ideal S32x32 .f32) (x4 : Vec Ideal S1x32 .f32)
    (p : Fin 5000) (c : Fin 32) :
    k1_pay1 (F := Ideal) x0 x1 x2 x3 x4 (ix2 p c) = max (Cert.Sage.affineAt x0 x1 x2 x3 x4 p c) (Ideal.ofBits .f32 0x00000000#32) := by
  unfold k1_pay1 Cert.Sage.affineAt
  simp only [shapeCast_self]
  rw [maximumf_apply, broadcast_apply]
  refine congrArg (fun z => max z _) ?_
  rw [addf_apply, addf_apply, product_apply, product_apply, broadcastTo_1b_ab_apply]
  rfl

end Cert.KernelIdeal.Body1

end
-- ==== Proof.Blocks1.lean ====
/-
  Layer 2's output array after its twenty grid points.

  Point `t` of the grid reads rows `5000·t … 5000·t + 4999` of the node features and of the aggregated features, the two
  weight matrices and the bias row whole, and writes the same rows of the output. So what point `t` writes back is block `t`
  of ONE whole-array function of the arrays the region finds: the clamped layer of Spec.lean. The twenty blocks tile the
  100000 × 32 output (row `r` is in block `r / 5000`), hence the array ends holding that function. Stated for any
  contents `V` of the buffers at the region's entry.
-/
import proofs.«113020_j37082747633734_1_alg».proof.Proof.Gen.KernelIdeal.Frame
import proofs.«113020_j37082747633734_1_alg».proof.Proof.Body1
import proofs.«113020_j37082747633734_1_alg».proof.Proof.Spec
import Idealize.ShloMosaic.Lib.Pipeline.Value
import Idealize.ShloMosaic.Lib.ValueIdx

set_option maxRecDepth 16384

noncomputable section

namespace Cert.KernelIdeal.Layer1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps, decided over the grid: the two feature windows and the output move down one block of rows per
    point; the weights and the bias stay at block (0, 0). -/
theorem index_maps : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of point `t`'s block of the node features is row `5000·t + p` of the array. -/
theorem features_apply (c : Dev nD) (t : Fin cfg1.N) (p : Fin 5000) (k : Fin 32) (hp : t.val * 5000 + p.val < 100000) :
    (iblk1 V c 0 t : Vec Ideal S5000x32 .f32) (ix2 p k) = (V c main_v20 : Vec Ideal S100000x32 .f32) (ix2 ⟨t.val * 5000 + p.val, hp⟩ k) := by
  obtain ⟨e0, e1, -⟩ := index_maps t
  unfold iblk1
  rw [View.read_apply]
  show V c main_v20 _ = V c main_v20 _
  congr 1
  funext a
  apply Fin.ext
  match a with
  | ⟨0, _⟩ => show win1_0.index t (0 : Fin 2) * 5000 + 1 * p.val = t.val * 5000 + p.val; rw [e0]; omega
  | ⟨1, _⟩ => show win1_0.index t (1 : Fin 2) * 32 + 1 * k.val = k.val; rw [e1]; omega

/-- The same for the aggregated features. -/
theorem aggregated_apply (c : Dev nD) (t : Fin cfg1.N) (p : Fin 5000) (k : Fin 32) (hp : t.val * 5000 + p.val < 100000) :
    (iblk1 V c 1 t : Vec Ideal S5000x32 .f32) (ix2 p k) = (V c main_v39 : Vec Ideal S100000x32 .f32) (ix2 ⟨t.val * 5000 + p.val, hp⟩ k) := by
  obtain ⟨-, -, e0, e1, -⟩ := index_maps t
  unfold iblk1
  rw [View.read_apply]
  show V c main_v39 _ = V c main_v39 _
  congr 1
  funext a
  apply Fin.ext
  match a with
  | ⟨0, _⟩ => show win1_1.index t (0 : Fin 2) * 5000 + 1 * p.val = t.val * 5000 + p.val; rw [e0]; omega
  | ⟨1, _⟩ => show win1_1.index t (1 : Fin 2) * 32 + 1 * k.val = k.val; rw [e1]; omega

/-- Each weight matrix's one block is the matrix. -/
theorem self_weights_apply (c : Dev nD) (t : Fin cfg1.N) (k : Fin 32) (q : Fin 32) :
    (iblk1 V c 2 t : Vec Ideal S32x32 .f32) (ix2 k q) = (V c main_arg6 : Vec Ideal S32x32 .f32) (ix2 k q) := by
  obtain ⟨-, -, -, -, e0, e1, -⟩ := index_maps t
  unfold iblk1
  rw [View.read_apply]
  show V c main_arg6 _ = V c main_arg6 _
  congr 1
  funext a
  apply Fin.ext
  match a with
  | ⟨0, _⟩ => show win1_2.index t (0 : Fin 2) * 32 + 1 * k.val = k.val; rw [e0]; omega
  | ⟨1, _⟩ => show win1_2.index t (1 : Fin 2) * 32 + 1 * q.val = q.val; rw [e1]; omega

theorem neighbour_weights_apply (c : Dev nD) (t : Fin cfg1.N) (k : Fin 32) (q : Fin 32) :
    (iblk1 V c 3 t : Vec Ideal S32x32 .f32) (ix2 k q) = (V c main_arg7 : Vec Ideal S32x32 .f32) (ix2 k q) := by
  obtain ⟨-, -, -, -, -, -, e0, e1, -⟩ := index_maps t
  unfold iblk1
  rw [View.read_apply]
  show V c main_arg7 _ = V c main_arg7 _
  congr 1
  funext a
  apply Fin.ext
  match a with
  | ⟨0, _⟩ => show win1_3.index t (0 : Fin 2) * 32 + 1 * k.val = k.val; rw [e0]; omega
  | ⟨1, _⟩ => show win1_3.index t (1 : Fin 2) * 32 + 1 * q.val = q.val; rw [e1]; omega

/-- The bias row's one block is the row. -/
theorem bias_apply (c : Dev nD) (t : Fin cfg1.N) (q : Fin 32) :
    (iblk1 V c 4 t : Vec Ideal S1x32 .f32) (ix2 (0 : Fin 1) q) = (V c main_v40 : Vec Ideal S1x32 .f32) (ix2 (0 : Fin 1) q) := by
  obtain ⟨-, -, -, -, -, -, -, -, e0, e1, -⟩ := index_maps t
  unfold iblk1
  rw [View.read_apply]
  show V c main_v40 _ = V c main_v40 _
  congr 1
  funext a
  apply Fin.ext
  match a with
  | ⟨0, _⟩ => show win1_4.index t (0 : Fin 2) * 1 + 1 * 0 = 0; rw [e0]
  | ⟨1, _⟩ => show win1_4.index t (1 : Fin 2) * 32 + 1 * q.val = q.val; rw [e1]; omega

/-- WHAT POINT `t` WRITES BACK is block `t` of the layer of the arrays the region finds. -/
theorem flushed_eq (c : Dev nD) (t : Fin cfg1.N) :
    (dat1 V c).flushed 5 t = ((cfg1.win 5).blk t).view.read (Elt Ideal)
      (Cert.Sage.affineRelu (N := 100000) (K := 32) (M := 32) (V c main_v20) (V c main_v39) (V c main_arg6) (V c main_arg7) (V c main_v40)) := by
  show (cfg1.win 5).cut (grid1.coords t) ((dat1 V c).after 5 t) = _
  rw [after1_5]
  unfold out1_5
  rw [View.canon_unit_zero zero_offsets]
  simp only [View.ld_unit_zero (S := S5000x32) zero_offsets, View.ld_unit_zero (S := S32x32) zero_offsets, View.ld_unit_zero (S := S1x32) zero_offsets]
  obtain ⟨-, -, -, -, -, -, -, -, -, -, e0, e1⟩ := index_maps t
  have hN : t.val < 20 := lt_of_lt_of_eq t.isLt (show cfg1.N = 20 from N_1)
  funext j
  obtain ⟨p, q, rfl⟩ : ∃ (p : Fin 5000) (q : Fin 32), j = ix2 p q := ⟨j 0, j 1, eq_ix2 j⟩
  have hp : t.val * 5000 + p.val < 100000 := by have := p.isLt; omega
  have hemb : ((cfg1.win 5).blk t).view.emb (ix2 p q) = (ix2 (⟨t.val * 5000 + p.val, hp⟩ : Fin 100000) q : S100000x32.Idx) := by
    funext a
    apply Fin.ext
    match a with
    | ⟨0, _⟩ => show win1_5.index t (0 : Fin 2) * 5000 + 1 * p.val = t.val * 5000 + p.val; rw [e0]; omega
    | ⟨1, _⟩ => show win1_5.index t (1 : Fin 2) * 32 + 1 * q.val = q.val; rw [e1]; omega
  refine (Body1.payload_apply (iblk1 V c 0 t) (iblk1 V c 1 t) (iblk1 V c 2 t) (iblk1 V c 3 t) (iblk1 V c 4 t) p q).trans ?_
  rw [View.read_apply, hemb, Cert.Sage.affineRelu_ix2]
  refine congrArg (fun z => max z _) ?_
  exact Cert.Sage.affineAt_congr (iblk1 V c 0 t) (iblk1 V c 1 t) (V c main_v20) (V c main_v39) (iblk1 V c 2 t) (iblk1 V c 3 t) (V c main_arg6) (V c main_arg7)
    (iblk1 V c 4 t) (V c main_v40) p ⟨t.val * 5000 + p.val, hp⟩ q
    (fun k => features_apply V c t p k hp) (fun k => aggregated_apply V c t p k hp)
    (fun k => self_weights_apply V c t k q) (fun k => neighbour_weights_apply V c t k q) (bias_apply V c t q)

/-- An index of the output array is in point `t`'s block iff each coordinate is in the block's range on its axis. -/
theorem mem_block (t : Fin cfg1.N) (i : S100000x32.Idx) :
    i ∈ ((cfg1.win 5).blk t).view.set ↔ ∀ a : Fin 2, win1_5.index t a * S5000x32.size a ≤ (i a).val ∧ (i a).val < win1_5.index t a * S5000x32.size a + S5000x32.size a := by
  show i ∈ ((View.whole main_v41).slice (win1_5.rect t)).set ↔ _
  rw [View.set_slice_whole, Rect.mem_set_unit]
  exact Iff.rfl

/-- Every index of the output is in the block of the point that owns its row. -/
theorem blocks_cover (i : S100000x32.Idx) : ∃ t : Fin cfg1.N, (cfg1.win 5).flush t = true ∧ i ∈ ((cfg1.win 5).blk t).view.set := by
  have hi0 : (i 0).val < 100000 := (i 0).isLt
  have hi1 : (i 1).val < 32 := (i 1).isLt
  have ht : (i 0).val / 5000 < cfg1.N := by rw [show cfg1.N = 20 from N_1]; omega
  refine ⟨⟨(i 0).val / 5000, ht⟩, flush1_5 _, ?_⟩
  rw [mem_block]
  obtain ⟨-, -, -, -, -, -, -, -, -, -, e0, e1⟩ := index_maps ⟨(i 0).val / 5000, ht⟩
  intro a
  match a with
  | ⟨0, _⟩ =>
    show win1_5.index ⟨(i 0).val / 5000, ht⟩ (0 : Fin 2) * 5000 ≤ (i 0).val ∧ (i 0).val < win1_5.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win1_5.index ⟨(i 0).val / 5000, ht⟩ (1 : Fin 2) * 32 ≤ (i 1).val ∧ (i 1).val < win1_5.index ⟨(i 0).val / 5000, ht⟩ (1 : Fin 2) * 32 + 32
    rw [e1]; omega

/-- THE ARRAY after the region: the layer of the arrays the region found. -/
theorem final (c : Dev nD) :
    (dat1 V c).arrAt 5 cfg1.N = Cert.Sage.affineRelu (N := 100000) (K := 32) (M := 32) (V c main_v20) (V c main_v39) (V c main_arg6) (V c main_arg7) (V c main_v40) :=
  (dat1 V c).arrAt_eq_of_cover 5 _ (fun t _ => flushed_eq V c t) blocks_cover

end Cert.KernelIdeal.Layer1

end
-- ==== Proof.Body2.lean ====
/-
  Layer 3's body at an entry of its row block.

  One grid point loads a block of 5000 rows of the node features and of the aggregated neighbour features, both weight
  matrices whole and the bias row, multiplies the two blocks by their matrices into zero accumulators, adds the products and
  the bias row broadcast over the rows and stores the block. Read at row `p`, column `c` of the block this is
  the layer's entry of the loaded arrays: a change of float format is the identity on the extended reals, and a product into
  a zero accumulator is the plain sum over the contracted axis.
-/
import proofs.«113020_j37082747633734_1_alg».proof.Proof.Gen.KernelIdeal.Skeleton
import proofs.«113020_j37082747633734_1_alg».proof.Proof.LibPlainDot
import proofs.«113020_j37082747633734_1_alg».proof.Proof.Spec
import Idealize.ShloMosaic.Lib.Pipeline.Value
import Idealize.ShloMosaic.Lib.ValueIdx
import Idealize.ShloMosaic.Lib.ValueLayout

noncomputable section

namespace Cert.KernelIdeal.Body2

open Cert.KernelIdeal Cert.KernelIdeal.Gen Idealize.ShloMosaic Idealize.ShloMosaic.ValueIdx

/-- The left operand's index at output index `i` and contraction position `q` is `(i 0, q)`, the right one's `(q, i 1)`. -/
theorem lhs_0 (i : S5000x16.Idx) (q : dot_S5000x32_S32x16_S5000x16_1_0_0_1_n_n.contr.Idx) : (dot_S5000x32_S32x16_S5000x16_1_0_0_1_n_n.lhsIdx i q 0).val = (i 0).val := by
  unfold DotDims.lhsIdx
  rw [dif_neg (show ¬(0 : Fin S5000x32.rank) ∈ dot_S5000x32_S32x16_S5000x16_1_0_0_1_n_n.lhsBatch by decide), dif_pos (show (0 : Fin S5000x32.rank) ∈ dot_S5000x32_S32x16_S5000x16_1_0_0_1_n_n.lhsNonContracting by decide)]
  rfl
theorem lhs_1 (i : S5000x16.Idx) (q : dot_S5000x32_S32x16_S5000x16_1_0_0_1_n_n.contr.Idx) : (dot_S5000x32_S32x16_S5000x16_1_0_0_1_n_n.lhsIdx i q 1).val = (q ⟨0, by decide⟩).val :=
  dot_S5000x32_S32x16_S5000x16_1_0_0_1_n_n.lhsIdx_val_of_single rfl i q
theorem rhs_0 (i : S5000x16.Idx) (q : dot_S5000x32_S32x16_S5000x16_1_0_0_1_n_n.contr.Idx) : (dot_S5000x32_S32x16_S5000x16_1_0_0_1_n_n.rhsIdx i q 0).val = (q ⟨0, by decide⟩).val :=
  dot_S5000x32_S32x16_S5000x16_1_0_0_1_n_n.rhsIdx_val_of_single rfl i q
theorem rhs_1 (i : S5000x16.Idx) (q : dot_S5000x32_S32x16_S5000x16_1_0_0_1_n_n.contr.Idx) : (dot_S5000x32_S32x16_S5000x16_1_0_0_1_n_n.rhsIdx i q 1).val = (i 1).val := by
  unfold DotDims.rhsIdx
  rw [dif_neg (show ¬(1 : Fin S32x16.rank) ∈ dot_S5000x32_S32x16_S5000x16_1_0_0_1_n_n.rhsBatch by decide), dif_pos (show (1 : Fin S32x16.rank) ∈ dot_S5000x32_S32x16_S5000x16_1_0_0_1_n_n.rhsNonContracting by decide)]
  rfl

/-- A block product into the zero accumulator at `(p, c)`: the sum over the 32 contracted positions. -/
theorem product_apply {φ₁ φ₂ : FTy} (l : FVec Ideal S5000x32 φ₁) (r : FVec Ideal S32x16 φ₂) (p : Fin 5000) (c : Fin 16) :
    matmul dot_S5000x32_S32x16_S5000x16_1_0_0_1_n_n none l r (constant (F := Ideal) S5000x16 .f32 0x00000000#32) (ix2 p c)
      = ∑ k : Fin 32, l (ix2 p k) * r (ix2 k c) :=
  Cert.Lib.PlainDot.matmul_zero_ix2 dot_S5000x32_S32x16_S5000x16_1_0_0_1_n_n rfl rfl lhs_0 lhs_1 rhs_0 rhs_1 none l r p c

/-- The stored block at `(p, c)` is the layer's entry of the loaded blocks. -/
theorem payload_apply (x0 x1 : Vec Ideal S5000x32 .f32) (x2 x3 : Vec Ideal S32x16 .f32) (x4 : Vec Ideal S1x16 .f32)
    (p : Fin 5000) (c : Fin 16) :
    k2_pay1 (F := Ideal) x0 x1 x2 x3 x4 (ix2 p c) = Cert.Sage.affineAt x0 x1 x2 x3 x4 p c := by
  unfold k2_pay1 Cert.Sage.affineAt
  simp only [shapeCast_self]
  rw [addf_apply, addf_apply, product_apply, product_apply, broadcastTo_1b_ab_apply]
  rfl

end Cert.KernelIdeal.Body2

end
-- ==== Proof.Blocks2.lean ====
/-
  Layer 3's output array after its twenty grid points.

  Point `t` of the grid reads rows `5000·t … 5000·t + 4999` of the node features and of the aggregated features, the two
  weight matrices and the bias row whole, and writes the same rows of the output. So what point `t` writes back is block `t`
  of ONE whole-array function of the arrays the region finds: the layer of Spec.lean. The twenty blocks tile the
  100000 × 16 output (row `r` is in block `r / 5000`), hence the array ends holding that function. Stated for any
  contents `V` of the buffers at the region's entry.
-/
import proofs.«113020_j37082747633734_1_alg».proof.Proof.Gen.KernelIdeal.Frame
import proofs.«113020_j37082747633734_1_alg».proof.Proof.Body2
import proofs.«113020_j37082747633734_1_alg».proof.Proof.Spec
import Idealize.ShloMosaic.Lib.Pipeline.Value
import Idealize.ShloMosaic.Lib.ValueIdx

set_option maxRecDepth 16384

noncomputable section

namespace Cert.KernelIdeal.Layer2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps, decided over the grid: the two feature windows and the output move down one block of rows per
    point; the weights and the bias stay at block (0, 0). -/
theorem index_maps : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row `p` of point `t`'s block of the node features is row `5000·t + p` of the array. -/
theorem features_apply (c : Dev nD) (t : Fin cfg2.N) (p : Fin 5000) (k : Fin 32) (hp : t.val * 5000 + p.val < 100000) :
    (iblk2 V c 0 t : Vec Ideal S5000x32 .f32) (ix2 p k) = (V c main_v41 : Vec Ideal S100000x32 .f32) (ix2 ⟨t.val * 5000 + p.val, hp⟩ k) := by
  obtain ⟨e0, e1, -⟩ := index_maps t
  unfold iblk2
  rw [View.read_apply]
  show V c main_v41 _ = V c main_v41 _
  congr 1
  funext a
  apply Fin.ext
  match a with
  | ⟨0, _⟩ => show win2_0.index t (0 : Fin 2) * 5000 + 1 * p.val = t.val * 5000 + p.val; rw [e0]; omega
  | ⟨1, _⟩ => show win2_0.index t (1 : Fin 2) * 32 + 1 * k.val = k.val; rw [e1]; omega

/-- The same for the aggregated features. -/
theorem aggregated_apply (c : Dev nD) (t : Fin cfg2.N) (p : Fin 5000) (k : Fin 32) (hp : t.val * 5000 + p.val < 100000) :
    (iblk2 V c 1 t : Vec Ideal S5000x32 .f32) (ix2 p k) = (V c main_v60 : Vec Ideal S100000x32 .f32) (ix2 ⟨t.val * 5000 + p.val, hp⟩ k) := by
  obtain ⟨-, -, e0, e1, -⟩ := index_maps t
  unfold iblk2
  rw [View.read_apply]
  show V c main_v60 _ = V c main_v60 _
  congr 1
  funext a
  apply Fin.ext
  match a with
  | ⟨0, _⟩ => show win2_1.index t (0 : Fin 2) * 5000 + 1 * p.val = t.val * 5000 + p.val; rw [e0]; omega
  | ⟨1, _⟩ => show win2_1.index t (1 : Fin 2) * 32 + 1 * k.val = k.val; rw [e1]; omega

/-- Each weight matrix's one block is the matrix. -/
theorem self_weights_apply (c : Dev nD) (t : Fin cfg2.N) (k : Fin 32) (q : Fin 16) :
    (iblk2 V c 2 t : Vec Ideal S32x16 .f32) (ix2 k q) = (V c main_arg9 : Vec Ideal S32x16 .f32) (ix2 k q) := by
  obtain ⟨-, -, -, -, e0, e1, -⟩ := index_maps t
  unfold iblk2
  rw [View.read_apply]
  show V c main_arg9 _ = V c main_arg9 _
  congr 1
  funext a
  apply Fin.ext
  match a with
  | ⟨0, _⟩ => show win2_2.index t (0 : Fin 2) * 32 + 1 * k.val = k.val; rw [e0]; omega
  | ⟨1, _⟩ => show win2_2.index t (1 : Fin 2) * 16 + 1 * q.val = q.val; rw [e1]; omega

theorem neighbour_weights_apply (c : Dev nD) (t : Fin cfg2.N) (k : Fin 32) (q : Fin 16) :
    (iblk2 V c 3 t : Vec Ideal S32x16 .f32) (ix2 k q) = (V c main_arg10 : Vec Ideal S32x16 .f32) (ix2 k q) := by
  obtain ⟨-, -, -, -, -, -, e0, e1, -⟩ := index_maps t
  unfold iblk2
  rw [View.read_apply]
  show V c main_arg10 _ = V c main_arg10 _
  congr 1
  funext a
  apply Fin.ext
  match a with
  | ⟨0, _⟩ => show win2_3.index t (0 : Fin 2) * 32 + 1 * k.val = k.val; rw [e0]; omega
  | ⟨1, _⟩ => show win2_3.index t (1 : Fin 2) * 16 + 1 * q.val = q.val; rw [e1]; omega

/-- The bias row's one block is the row. -/
theorem bias_apply (c : Dev nD) (t : Fin cfg2.N) (q : Fin 16) :
    (iblk2 V c 4 t : Vec Ideal S1x16 .f32) (ix2 (0 : Fin 1) q) = (V c main_v61 : Vec Ideal S1x16 .f32) (ix2 (0 : Fin 1) q) := by
  obtain ⟨-, -, -, -, -, -, -, -, e0, e1, -⟩ := index_maps t
  unfold iblk2
  rw [View.read_apply]
  show V c main_v61 _ = V c main_v61 _
  congr 1
  funext a
  apply Fin.ext
  match a with
  | ⟨0, _⟩ => show win2_4.index t (0 : Fin 2) * 1 + 1 * 0 = 0; rw [e0]
  | ⟨1, _⟩ => show win2_4.index t (1 : Fin 2) * 16 + 1 * q.val = q.val; rw [e1]; omega

/-- WHAT POINT `t` WRITES BACK is block `t` of the layer of the arrays the region finds. -/
theorem flushed_eq (c : Dev nD) (t : Fin cfg2.N) :
    (dat2 V c).flushed 5 t = ((cfg2.win 5).blk t).view.read (Elt Ideal)
      (Cert.Sage.affine (N := 100000) (K := 32) (M := 16) (V c main_v41) (V c main_v60) (V c main_arg9) (V c main_arg10) (V c main_v61)) := by
  show (cfg2.win 5).cut (grid2.coords t) ((dat2 V c).after 5 t) = _
  rw [after2_5]
  unfold out2_5
  rw [View.canon_unit_zero zero_offsets]
  simp only [View.ld_unit_zero (S := S5000x32) zero_offsets, View.ld_unit_zero (S := S32x16) zero_offsets, View.ld_unit_zero (S := S1x16) zero_offsets]
  obtain ⟨-, -, -, -, -, -, -, -, -, -, e0, e1⟩ := index_maps t
  have hN : t.val < 20 := lt_of_lt_of_eq t.isLt (show cfg2.N = 20 from N_2)
  funext j
  obtain ⟨p, q, rfl⟩ : ∃ (p : Fin 5000) (q : Fin 16), j = ix2 p q := ⟨j 0, j 1, eq_ix2 j⟩
  have hp : t.val * 5000 + p.val < 100000 := by have := p.isLt; omega
  have hemb : ((cfg2.win 5).blk t).view.emb (ix2 p q) = (ix2 (⟨t.val * 5000 + p.val, hp⟩ : Fin 100000) q : S100000x16.Idx) := by
    funext a
    apply Fin.ext
    match a with
    | ⟨0, _⟩ => show win2_5.index t (0 : Fin 2) * 5000 + 1 * p.val = t.val * 5000 + p.val; rw [e0]; omega
    | ⟨1, _⟩ => show win2_5.index t (1 : Fin 2) * 16 + 1 * q.val = q.val; rw [e1]; omega
  refine (Body2.payload_apply (iblk2 V c 0 t) (iblk2 V c 1 t) (iblk2 V c 2 t) (iblk2 V c 3 t) (iblk2 V c 4 t) p q).trans ?_
  rw [View.read_apply, hemb, Cert.Sage.affine_ix2]
  exact Cert.Sage.affineAt_congr (iblk2 V c 0 t) (iblk2 V c 1 t) (V c main_v41) (V c main_v60) (iblk2 V c 2 t) (iblk2 V c 3 t) (V c main_arg9) (V c main_arg10)
    (iblk2 V c 4 t) (V c main_v61) p ⟨t.val * 5000 + p.val, hp⟩ q
    (fun k => features_apply V c t p k hp) (fun k => aggregated_apply V c t p k hp)
    (fun k => self_weights_apply V c t k q) (fun k => neighbour_weights_apply V c t k q) (bias_apply V c t q)

/-- An index of the output array is in point `t`'s block iff each coordinate is in the block's range on its axis. -/
theorem mem_block (t : Fin cfg2.N) (i : S100000x16.Idx) :
    i ∈ ((cfg2.win 5).blk t).view.set ↔ ∀ a : Fin 2, win2_5.index t a * S5000x16.size a ≤ (i a).val ∧ (i a).val < win2_5.index t a * S5000x16.size a + S5000x16.size a := by
  show i ∈ ((View.whole main_v62).slice (win2_5.rect t)).set ↔ _
  rw [View.set_slice_whole, Rect.mem_set_unit]
  exact Iff.rfl

/-- Every index of the output is in the block of the point that owns its row. -/
theorem blocks_cover (i : S100000x16.Idx) : ∃ t : Fin cfg2.N, (cfg2.win 5).flush t = true ∧ i ∈ ((cfg2.win 5).blk t).view.set := by
  have hi0 : (i 0).val < 100000 := (i 0).isLt
  have hi1 : (i 1).val < 16 := (i 1).isLt
  have ht : (i 0).val / 5000 < cfg2.N := by rw [show cfg2.N = 20 from N_2]; omega
  refine ⟨⟨(i 0).val / 5000, ht⟩, flush2_5 _, ?_⟩
  rw [mem_block]
  obtain ⟨-, -, -, -, -, -, -, -, -, -, e0, e1⟩ := index_maps ⟨(i 0).val / 5000, ht⟩
  intro a
  match a with
  | ⟨0, _⟩ =>
    show win2_5.index ⟨(i 0).val / 5000, ht⟩ (0 : Fin 2) * 5000 ≤ (i 0).val ∧ (i 0).val < win2_5.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win2_5.index ⟨(i 0).val / 5000, ht⟩ (1 : Fin 2) * 16 ≤ (i 1).val ∧ (i 1).val < win2_5.index ⟨(i 0).val / 5000, ht⟩ (1 : Fin 2) * 16 + 16
    rw [e1]; omega

/-- THE ARRAY after the region: the layer of the arrays the region found. -/
theorem final (c : Dev nD) :
    (dat2 V c).arrAt 5 cfg2.N = Cert.Sage.affine (N := 100000) (K := 32) (M := 16) (V c main_v41) (V c main_v60) (V c main_arg9) (V c main_arg10) (V c main_v61) :=
  (dat2 V c).arrAt_eq_of_cover 5 _ (fun t _ => flushed_eq V c t) blocks_cover

end Cert.KernelIdeal.Layer2

end
-- ==== Proof.RefLayers.lean ====
/-
  The reference program, layer by layer.

  Its run ends at a composed term of the twelve arguments; read one operation at a time that term is three layers, each the
  sum of two matrix products and a bias row broadcast over the nodes, the first two clamped at zero, each fed by the mean of
  the previous layer's rows over the incoming edges. Here each layer's stage is identified, index by index, with the layer
  function of Spec.lean applied to the previous stage, its aggregation and the arguments; the aggregation itself (index
  wrap-around, gather, scatter-add, degree count, division) is carried as one function of the array it aggregates and never
  opened.
-/
import proofs.«113020_j37082747633734_1_alg».proof.Proof.Gen.ReferenceIdeal.Read
import proofs.«113020_j37082747633734_1_alg».proof.Proof.Spec
import Idealize.ShloMosaic.Lib.ValueIdx

set_option maxRecDepth 16384

noncomputable section

namespace Cert.ReferenceIdeal.Layers

open Cert.ReferenceIdeal Cert.ReferenceIdeal.Read Idealize.ShloMosaic Idealize.ShloMosaic.ValueIdx

/-- The mean of a `[100000, 32]` array's rows over the incoming edges: row `src e` (a negative index wrapped around once)
    is added into row `dst e` for every edge `e`, and each row is divided by the larger of its in-degree and one. -/
def meanAgg32 (h : (⟨S100000x32, .f32⟩ : BufTy).Contents (Elt Ideal)) (src dst : (⟨S1600000, .i32⟩ : BufTy).Contents (Elt Ideal)) :
    (⟨S100000x32, .f32⟩ : BufTy).Contents (Elt Ideal) :=
  Host.divf (F := Ideal) (φ := .f32) (Host.scatterAdd (F := Ideal) (φ := .f32) scatter_S100000x32_S1600000x1_S1600000x32_1_0_0_1 (val_main_v33 (F := Ideal)) (val_main_v34 (F := Ideal) dst)
    (Host.gather (α := Ideal .f32) gather_S100000x32_S1600000x1_S1600000x32_1_0_n_n_0_1_132 h (val_main_v31 (F := Ideal) src))) (val_main_v43 (F := Ideal) dst)

/-- The second layer's aggregation is that mean of the first layer's output. -/
theorem aggregated2_eq (x0 : (⟨S100000x128, .f32⟩ : BufTy).Contents (Elt Ideal)) (x1 : (⟨S1600000, .i32⟩ : BufTy).Contents (Elt Ideal)) (x2 : (⟨S1600000, .i32⟩ : BufTy).Contents (Elt Ideal)) (x3 : (⟨S128x32, .f32⟩ : BufTy).Contents (Elt Ideal)) (x4 : (⟨S128x32, .f32⟩ : BufTy).Contents (Elt Ideal)) (x5 : (⟨S32, .f32⟩ : BufTy).Contents (Elt Ideal)) :
    val_main_v44 (F := Ideal) x0 x1 x2 x3 x4 x5 = meanAgg32 (val_main_v25 (F := Ideal) x0 x1 x2 x3 x4 x5) x1 x2 := rfl

/-- The third layer's aggregation is the same mean of the second layer's output. -/
theorem aggregated3_eq (x0 : (⟨S100000x128, .f32⟩ : BufTy).Contents (Elt Ideal)) (x1 : (⟨S1600000, .i32⟩ : BufTy).Contents (Elt Ideal)) (x2 : (⟨S1600000, .i32⟩ : BufTy).Contents (Elt Ideal)) (x3 : (⟨S128x32, .f32⟩ : BufTy).Contents (Elt Ideal)) (x4 : (⟨S128x32, .f32⟩ : BufTy).Contents (Elt Ideal)) (x5 : (⟨S32, .f32⟩ : BufTy).Contents (Elt Ideal)) (x6 : (⟨S32x32, .f32⟩ : BufTy).Contents (Elt Ideal)) (x7 : (⟨S32x32, .f32⟩ : BufTy).Contents (Elt Ideal)) (x8 : (⟨S32, .f32⟩ : BufTy).Contents (Elt Ideal)) :
    val_main_v70 (F := Ideal) x0 x1 x2 x3 x4 x5 x6 x7 x8 = meanAgg32 (val_main_v51 (F := Ideal) x0 x1 x2 x3 x4 x5 x6 x7 x8) x1 x2 := rfl

/-- The first layer: the clamped layer of the node features, their mean over the edges, the first two weight matrices and
    the first bias laid out as a row. -/
theorem layer1_eq (x0 : (⟨S100000x128, .f32⟩ : BufTy).Contents (Elt Ideal)) (x1 : (⟨S1600000, .i32⟩ : BufTy).Contents (Elt Ideal)) (x2 : (⟨S1600000, .i32⟩ : BufTy).Contents (Elt Ideal)) (x3 : (⟨S128x32, .f32⟩ : BufTy).Contents (Elt Ideal)) (x4 : (⟨S128x32, .f32⟩ : BufTy).Contents (Elt Ideal)) (x5 : (⟨S32, .f32⟩ : BufTy).Contents (Elt Ideal)) :
    val_main_v25 (F := Ideal) x0 x1 x2 x3 x4 x5
      = Cert.Sage.affineRelu (N := 100000) (K := 128) (M := 32) x0 (val_main_v18 (F := Ideal) x0 x1 x2) x3 x4 (val_main_v22 (F := Ideal) x5) := by
  funext i
  obtain ⟨p, q, rfl⟩ : ∃ (p : Fin 100000) (q : Fin 32), i = ix2 p q := ⟨i 0, i 1, eq_ix2 i⟩
  have el : ∀ k : Fin 128, lidx_main_v19 (ix2 p q) k = ix2 p k := fun k => funext fun a => Fin.ext (by match a with | ⟨0, _⟩ => rfl | ⟨1, _⟩ => rfl)
  have er : ∀ k : Fin 128, ridx_main_v19 (ix2 p q) k = ix2 k q := fun k => funext fun a => Fin.ext (by match a with | ⟨0, _⟩ => rfl | ⟨1, _⟩ => rfl)
  have el' : ∀ k : Fin 128, lidx_main_v20 (ix2 p q) k = ix2 p k := fun k => funext fun a => Fin.ext (by match a with | ⟨0, _⟩ => rfl | ⟨1, _⟩ => rfl)
  have er' : ∀ k : Fin 128, ridx_main_v20 (ix2 p q) k = ix2 k q := fun k => funext fun a => Fin.ext (by match a with | ⟨0, _⟩ => rfl | ⟨1, _⟩ => rfl)
  have eb : idx_main_v23 (ix2 p q) = ix2 (0 : Fin 1) q := funext fun a => Fin.ext (by match a with | ⟨0, _⟩ => rfl | ⟨1, _⟩ => rfl)
  rw [Cert.Sage.affineRelu_ix2, val_main_v25_apply, val_main_v24_apply, val_main_v21_apply, val_main_v19_apply, val_main_v20_apply,
    val_main_v23_apply, val_main_call0_v0_apply, val_main_call0_cst_apply]
  unfold Cert.Sage.affineAt
  simp only [el, er, el', er', eb, Ideal.maximumf_def, Ideal.addf_def, Ideal.ofBits_def]

/-- The second layer: the clamped layer of the first layer's output and its mean over the edges. -/
theorem layer2_eq (x0 : (⟨S100000x128, .f32⟩ : BufTy).Contents (Elt Ideal)) (x1 : (⟨S1600000, .i32⟩ : BufTy).Contents (Elt Ideal)) (x2 : (⟨S1600000, .i32⟩ : BufTy).Contents (Elt Ideal)) (x3 : (⟨S128x32, .f32⟩ : BufTy).Contents (Elt Ideal)) (x4 : (⟨S128x32, .f32⟩ : BufTy).Contents (Elt Ideal)) (x5 : (⟨S32, .f32⟩ : BufTy).Contents (Elt Ideal)) (x6 : (⟨S32x32, .f32⟩ : BufTy).Contents (Elt Ideal)) (x7 : (⟨S32x32, .f32⟩ : BufTy).Contents (Elt Ideal)) (x8 : (⟨S32, .f32⟩ : BufTy).Contents (Elt Ideal)) :
    val_main_v51 (F := Ideal) x0 x1 x2 x3 x4 x5 x6 x7 x8
      = Cert.Sage.affineRelu (N := 100000) (K := 32) (M := 32) (val_main_v25 (F := Ideal) x0 x1 x2 x3 x4 x5) (val_main_v44 (F := Ideal) x0 x1 x2 x3 x4 x5) x6 x7 (val_main_v48 (F := Ideal) x8) := by
  funext i
  obtain ⟨p, q, rfl⟩ : ∃ (p : Fin 100000) (q : Fin 32), i = ix2 p q := ⟨i 0, i 1, eq_ix2 i⟩
  have el : ∀ k : Fin 32, lidx_main_v45 (ix2 p q) k = ix2 p k := fun k => funext fun a => Fin.ext (by match a with | ⟨0, _⟩ => rfl | ⟨1, _⟩ => rfl)
  have er : ∀ k : Fin 32, ridx_main_v45 (ix2 p q) k = ix2 k q := fun k => funext fun a => Fin.ext (by match a with | ⟨0, _⟩ => rfl | ⟨1, _⟩ => rfl)
  have el' : ∀ k : Fin 32, lidx_main_v46 (ix2 p q) k = ix2 p k := fun k => funext fun a => Fin.ext (by match a with | ⟨0, _⟩ => rfl | ⟨1, _⟩ => rfl)
  have er' : ∀ k : Fin 32, ridx_main_v46 (ix2 p q) k = ix2 k q := fun k => funext fun a => Fin.ext (by match a with | ⟨0, _⟩ => rfl | ⟨1, _⟩ => rfl)
  have eb : idx_main_v49 (ix2 p q) = ix2 (0 : Fin 1) q := funext fun a => Fin.ext (by match a with | ⟨0, _⟩ => rfl | ⟨1, _⟩ => rfl)
  rw [Cert.Sage.affineRelu_ix2, val_main_v51_apply, val_main_v50_apply, val_main_v47_apply, val_main_v45_apply, val_main_v46_apply,
    val_main_v49_apply, val_main_call1_v0_apply, val_main_call1_cst_apply]
  unfold Cert.Sage.affineAt
  simp only [el, er, el', er', eb, Ideal.maximumf_def, Ideal.addf_def, Ideal.ofBits_def]

/-- The third layer: the layer, unclamped, of the second layer's output and its mean over the edges. -/
theorem layer3_eq (x0 : (⟨S100000x128, .f32⟩ : BufTy).Contents (Elt Ideal)) (x1 : (⟨S1600000, .i32⟩ : BufTy).Contents (Elt Ideal)) (x2 : (⟨S1600000, .i32⟩ : BufTy).Contents (Elt Ideal)) (x3 : (⟨S128x32, .f32⟩ : BufTy).Contents (Elt Ideal)) (x4 : (⟨S128x32, .f32⟩ : BufTy).Contents (Elt Ideal)) (x5 : (⟨S32, .f32⟩ : BufTy).Contents (Elt Ideal)) (x6 : (⟨S32x32, .f32⟩ : BufTy).Contents (Elt Ideal)) (x7 : (⟨S32x32, .f32⟩ : BufTy).Contents (Elt Ideal)) (x8 : (⟨S32, .f32⟩ : BufTy).Contents (Elt Ideal)) (x9 : (⟨S32x16, .f32⟩ : BufTy).Contents (Elt Ideal)) (x10 : (⟨S32x16, .f32⟩ : BufTy).Contents (Elt Ideal)) (x11 : (⟨S16, .f32⟩ : BufTy).Contents (Elt Ideal)) :
    val_main_v76 (F := Ideal) x0 x1 x2 x3 x4 x5 x6 x7 x8 x9 x10 x11
      = Cert.Sage.affine (N := 100000) (K := 32) (M := 16) (val_main_v51 (F := Ideal) x0 x1 x2 x3 x4 x5 x6 x7 x8) (val_main_v70 (F := Ideal) x0 x1 x2 x3 x4 x5 x6 x7 x8) x9 x10 (val_main_v74 (F := Ideal) x11) := by
  funext i
  obtain ⟨p, q, rfl⟩ : ∃ (p : Fin 100000) (q : Fin 16), i = ix2 p q := ⟨i 0, i 1, eq_ix2 i⟩
  have el : ∀ k : Fin 32, lidx_main_v71 (ix2 p q) k = ix2 p k := fun k => funext fun a => Fin.ext (by match a with | ⟨0, _⟩ => rfl | ⟨1, _⟩ => rfl)
  have er : ∀ k : Fin 32, ridx_main_v71 (ix2 p q) k = ix2 k q := fun k => funext fun a => Fin.ext (by match a with | ⟨0, _⟩ => rfl | ⟨1, _⟩ => rfl)
  have el' : ∀ k : Fin 32, lidx_main_v72 (ix2 p q) k = ix2 p k := fun k => funext fun a => Fin.ext (by match a with | ⟨0, _⟩ => rfl | ⟨1, _⟩ => rfl)
  have er' : ∀ k : Fin 32, ridx_main_v72 (ix2 p q) k = ix2 k q := fun k => funext fun a => Fin.ext (by match a with | ⟨0, _⟩ => rfl | ⟨1, _⟩ => rfl)
  have eb : idx_main_v75 (ix2 p q) = ix2 (0 : Fin 1) q := funext fun a => Fin.ext (by match a with | ⟨0, _⟩ => rfl | ⟨1, _⟩ => rfl)
  rw [Cert.Sage.affine_ix2, val_main_v76_apply, val_main_v73_apply, val_main_v71_apply, val_main_v72_apply, val_main_v75_apply]
  unfold Cert.Sage.affineAt
  simp only [el, er, el', er', eb, Ideal.addf_def]

/-- A bias vector laid out as a row by the reference's `broadcast_in_dim` reads, at `(0, q)`, the vector at `q`. -/
theorem bias_row1 (x5 : (⟨S32, .f32⟩ : BufTy).Contents (Elt Ideal)) (q : Fin 32) : val_main_v22 (F := Ideal) x5 (ix2 (0 : Fin 1) q) = x5 (ix1 q) := by
  rw [val_main_v22_apply]
  exact congrArg x5 (funext fun a => Fin.ext (by match a with | ⟨0, _⟩ => rfl))
theorem bias_row2 (x8 : (⟨S32, .f32⟩ : BufTy).Contents (Elt Ideal)) (q : Fin 32) : val_main_v48 (F := Ideal) x8 (ix2 (0 : Fin 1) q) = x8 (ix1 q) := by
  rw [val_main_v48_apply]
  exact congrArg x8 (funext fun a => Fin.ext (by match a with | ⟨0, _⟩ => rfl))
theorem bias_row3 (x11 : (⟨S16, .f32⟩ : BufTy).Contents (Elt Ideal)) (q : Fin 16) : val_main_v74 (F := Ideal) x11 (ix2 (0 : Fin 1) q) = x11 (ix1 q) := by
  rw [val_main_v74_apply]
  exact congrArg x11 (funext fun a => Fin.ext (by match a with | ⟨0, _⟩ => rfl))

end Cert.ReferenceIdeal.Layers

end
-- ==== Proof.Chain.lean ====
/-
  The idealized kernel's result as a function of the twelve arguments.

  The program is: the mean of the node features over the incoming edges (host operations), the first tiled layer, the mean
  of its output (host operations), the second tiled layer, the mean of its output, the third tiled layer. The buffers'
  contents at each boundary are a fold through those six segments. Read at the buffers each segment consumes, the fold
  gives: every argument array as launched (nothing writes one); each aggregated array the SAME composed host function the
  reference applies, of the previous layer's output and the two edge arrays; each bias row the bias vector with a leading unit
  axis; and each layer's output array, by the tiled layer's whole-array value, the layer function of the arrays it found.
  Chaining the three layers, the result array is the reference's own staged value at the kernel's arguments.
-/
import proofs.«113020_j37082747633734_1_alg».proof.Proof.Gen.KernelIdeal.Frame
import proofs.«113020_j37082747633734_1_alg».proof.Proof.Blocks0
import proofs.«113020_j37082747633734_1_alg».proof.Proof.Blocks1
import proofs.«113020_j37082747633734_1_alg».proof.Proof.Blocks2
import proofs.«113020_j37082747633734_1_alg».proof.Proof.RefLayers
import proofs.«113020_j37082747633734_1_alg».proof.Proof.Spec
import Idealize.ShloMosaic.Lib.StableHlo.Run
import Idealize.ShloMosaic.Lib.ValueLayout

set_option maxRecDepth 16384
set_option maxHeartbeats 1000000

noncomputable section

namespace Cert.KernelIdeal.Chain

open Cert.KernelIdeal Cert.KernelIdeal.Gen Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg)

/-! ## Before the first layer -/

theorem W1_arg0 (c : Dev nD) : W1 m ρ c (Proc.devRef .tc main_arg0) = m ((c : Thread nD τ).loc main_arg0) := by
  show StableHlo.after hostOps0 (W0 m ρ c) (Proc.devRef .tc main_arg0) = _
  after_results_simp <;> rfl
theorem W1_arg1 (c : Dev nD) : W1 m ρ c (Proc.devRef .tc main_arg1) = m ((c : Thread nD τ).loc main_arg1) := by
  show StableHlo.after hostOps0 (W0 m ρ c) (Proc.devRef .tc main_arg1) = _
  after_results_simp <;> rfl
theorem W1_arg2 (c : Dev nD) : W1 m ρ c (Proc.devRef .tc main_arg2) = m ((c : Thread nD τ).loc main_arg2) := by
  show StableHlo.after hostOps0 (W0 m ρ c) (Proc.devRef .tc main_arg2) = _
  after_results_simp <;> rfl
theorem W1_arg3 (c : Dev nD) : W1 m ρ c (Proc.devRef .tc main_arg3) = m ((c : Thread nD τ).loc main_arg3) := by
  show StableHlo.after hostOps0 (W0 m ρ c) (Proc.devRef .tc main_arg3) = _
  after_results_simp <;> rfl
theorem W1_arg4 (c : Dev nD) : W1 m ρ c (Proc.devRef .tc main_arg4) = m ((c : Thread nD τ).loc main_arg4) := by
  show StableHlo.after hostOps0 (W0 m ρ c) (Proc.devRef .tc main_arg4) = _
  after_results_simp <;> rfl
theorem W1_arg6 (c : Dev nD) : W1 m ρ c (Proc.devRef .tc main_arg6) = m ((c : Thread nD τ).loc main_arg6) := by
  show StableHlo.after hostOps0 (W0 m ρ c) (Proc.devRef .tc main_arg6) = _
  after_results_simp <;> rfl
theorem W1_arg7 (c : Dev nD) : W1 m ρ c (Proc.devRef .tc main_arg7) = m ((c : Thread nD τ).loc main_arg7) := by
  show StableHlo.after hostOps0 (W0 m ρ c) (Proc.devRef .tc main_arg7) = _
  after_results_simp <;> rfl
theorem W1_arg8 (c : Dev nD) : W1 m ρ c (Proc.devRef .tc main_arg8) = m ((c : Thread nD τ).loc main_arg8) := by
  show StableHlo.after hostOps0 (W0 m ρ c) (Proc.devRef .tc main_arg8) = _
  after_results_simp <;> rfl
theorem W1_arg9 (c : Dev nD) : W1 m ρ c (Proc.devRef .tc main_arg9) = m ((c : Thread nD τ).loc main_arg9) := by
  show StableHlo.after hostOps0 (W0 m ρ c) (Proc.devRef .tc main_arg9) = _
  after_results_simp <;> rfl
theorem W1_arg10 (c : Dev nD) : W1 m ρ c (Proc.devRef .tc main_arg10) = m ((c : Thread nD τ).loc main_arg10) := by
  show StableHlo.after hostOps0 (W0 m ρ c) (Proc.devRef .tc main_arg10) = _
  after_results_simp <;> rfl
theorem W1_arg11 (c : Dev nD) : W1 m ρ c (Proc.devRef .tc main_arg11) = m ((c : Thread nD τ).loc main_arg11) := by
  show StableHlo.after hostOps0 (W0 m ρ c) (Proc.devRef .tc main_arg11) = _
  after_results_simp <;> rfl

/-- The first layer's aggregated input: the reference's mean of the node features over the edges. -/
theorem W1_aggregated (c : Dev nD) : W1 m ρ c (Proc.devRef .tc main_v18)
    = Cert.ReferenceIdeal.Read.val_main_v18 (F := Ideal) (m ((c : Thread nD τ).loc main_arg0)) (m ((c : Thread nD τ).loc main_arg1)) (m ((c : Thread nD τ).loc main_arg2)) := by
  show StableHlo.after hostOps0 (W0 m ρ c) (Proc.devRef .tc main_v18) = _
  after_results_simp <;> rfl

/-- The first bias as a row. -/
theorem W1_bias (c : Dev nD) : W1 m ρ c (Proc.devRef .tc main_v19) = shapeCast S1x32 (m ((c : Thread nD τ).loc main_arg5)) shapeCasts_S32_S1x32 := by
  show StableHlo.after hostOps0 (W0 m ρ c) (Proc.devRef .tc main_v19) = _
  after_results_simp <;> rfl

/-- THE FIRST LAYER'S OUTPUT is the reference's first clamped stage at the kernel's arguments. -/
theorem layer1_out (c : Dev nD) : (dat0 (V1 m ρ) c).arrAt 5 cfg0.N
    = Cert.ReferenceIdeal.Read.val_main_v25 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [Layer0.final (V1 m ρ) c, Cert.ReferenceIdeal.Layers.layer1_eq]
  dsimp only [V1]
  rw [W1_arg0, W1_aggregated, W1_arg3, W1_arg4, W1_bias]
  exact Cert.Sage.affineRelu_bias _ _ _ _ _ _ fun q =>
    (shapeCast_a_1a_apply _ _ (0 : Fin 1) q).trans (Cert.ReferenceIdeal.Layers.bias_row1 _ q).symm

/-! ## Between the first and the second layer -/

theorem W2_arg1 (c : Dev nD) : W2 m ρ c (Proc.devRef .tc main_arg1) = m ((c : Thread nD τ).loc main_arg1) :=
  (W2_of_ne m ρ c main_arg1 (by decide)).trans (W1_arg1 m ρ c)
theorem W2_arg2 (c : Dev nD) : W2 m ρ c (Proc.devRef .tc main_arg2) = m ((c : Thread nD τ).loc main_arg2) :=
  (W2_of_ne m ρ c main_arg2 (by decide)).trans (W1_arg2 m ρ c)
theorem W2_arg6 (c : Dev nD) : W2 m ρ c (Proc.devRef .tc main_arg6) = m ((c : Thread nD τ).loc main_arg6) :=
  (W2_of_ne m ρ c main_arg6 (by decide)).trans (W1_arg6 m ρ c)
theorem W2_arg7 (c : Dev nD) : W2 m ρ c (Proc.devRef .tc main_arg7) = m ((c : Thread nD τ).loc main_arg7) :=
  (W2_of_ne m ρ c main_arg7 (by decide)).trans (W1_arg7 m ρ c)
theorem W2_arg8 (c : Dev nD) : W2 m ρ c (Proc.devRef .tc main_arg8) = m ((c : Thread nD τ).loc main_arg8) :=
  (W2_of_ne m ρ c main_arg8 (by decide)).trans (W1_arg8 m ρ c)
theorem W2_arg9 (c : Dev nD) : W2 m ρ c (Proc.devRef .tc main_arg9) = m ((c : Thread nD τ).loc main_arg9) :=
  (W2_of_ne m ρ c main_arg9 (by decide)).trans (W1_arg9 m ρ c)
theorem W2_arg10 (c : Dev nD) : W2 m ρ c (Proc.devRef .tc main_arg10) = m ((c : Thread nD τ).loc main_arg10) :=
  (W2_of_ne m ρ c main_arg10 (by decide)).trans (W1_arg10 m ρ c)
theorem W2_arg11 (c : Dev nD) : W2 m ρ c (Proc.devRef .tc main_arg11) = m ((c : Thread nD τ).loc main_arg11) :=
  (W2_of_ne m ρ c main_arg11 (by decide)).trans (W1_arg11 m ρ c)

theorem W2_out (c : Dev nD) : W2 m ρ c (Proc.devRef .tc main_v20) = Cert.ReferenceIdeal.Read.val_main_v25 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W2_arr m ρ c 5).trans (layer1_out m ρ c)

theorem W3_arg1 (c : Dev nD) : W3 m ρ c (Proc.devRef .tc main_arg1) = m ((c : Thread nD τ).loc main_arg1) := by
  show StableHlo.after hostOps1 (W2 m ρ c) (Proc.devRef .tc main_arg1) = _
  after_results_simp
  exact W2_arg1 m ρ c
theorem W3_arg2 (c : Dev nD) : W3 m ρ c (Proc.devRef .tc main_arg2) = m ((c : Thread nD τ).loc main_arg2) := by
  show StableHlo.after hostOps1 (W2 m ρ c) (Proc.devRef .tc main_arg2) = _
  after_results_simp
  exact W2_arg2 m ρ c
theorem W3_arg6 (c : Dev nD) : W3 m ρ c (Proc.devRef .tc main_arg6) = m ((c : Thread nD τ).loc main_arg6) := by
  show StableHlo.after hostOps1 (W2 m ρ c) (Proc.devRef .tc main_arg6) = _
  after_results_simp
  exact W2_arg6 m ρ c
theorem W3_arg7 (c : Dev nD) : W3 m ρ c (Proc.devRef .tc main_arg7) = m ((c : Thread nD τ).loc main_arg7) := by
  show StableHlo.after hostOps1 (W2 m ρ c) (Proc.devRef .tc main_arg7) = _
  after_results_simp
  exact W2_arg7 m ρ c
theorem W3_arg9 (c : Dev nD) : W3 m ρ c (Proc.devRef .tc main_arg9) = m ((c : Thread nD τ).loc main_arg9) := by
  show StableHlo.after hostOps1 (W2 m ρ c) (Proc.devRef .tc main_arg9) = _
  after_results_simp
  exact W2_arg9 m ρ c
theorem W3_arg10 (c : Dev nD) : W3 m ρ c (Proc.devRef .tc main_arg10) = m ((c : Thread nD τ).loc main_arg10) := by
  show StableHlo.after hostOps1 (W2 m ρ c) (Proc.devRef .tc main_arg10) = _
  after_results_simp
  exact W2_arg10 m ρ c
theorem W3_arg11 (c : Dev nD) : W3 m ρ c (Proc.devRef .tc main_arg11) = m ((c : Thread nD τ).loc main_arg11) := by
  show StableHlo.after hostOps1 (W2 m ρ c) (Proc.devRef .tc main_arg11) = _
  after_results_simp
  exact W2_arg11 m ρ c

theorem W3_features (c : Dev nD) : W3 m ρ c (Proc.devRef .tc main_v20) = Cert.ReferenceIdeal.Read.val_main_v25 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps1 (W2 m ρ c) (Proc.devRef .tc main_v20) = _
  after_results_simp
  exact W2_out m ρ c

/-- The second layer's aggregated input: the mean over the edges of the first layer's output. -/
theorem W3_aggregated (c : Dev nD) : W3 m ρ c (Proc.devRef .tc main_v39)
    = Cert.ReferenceIdeal.Layers.meanAgg32 (Cert.ReferenceIdeal.Read.val_main_v25 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg1)) (m ((c : Thread nD τ).loc main_arg2)) := by
  show StableHlo.after hostOps1 (W2 m ρ c) (Proc.devRef .tc main_v39) = _
  after_results_simp
  rw [W2_out, W2_arg1, W2_arg2]
  rfl

theorem W3_bias (c : Dev nD) : W3 m ρ c (Proc.devRef .tc main_v40) = shapeCast S1x32 (m ((c : Thread nD τ).loc main_arg8)) shapeCasts_S32_S1x32 := by
  show StableHlo.after hostOps1 (W2 m ρ c) (Proc.devRef .tc main_v40) = _
  after_results_simp
  rw [W2_arg8]
  rfl

/-- THE SECOND LAYER'S OUTPUT is the reference's second clamped stage at the kernel's arguments. -/
theorem layer2_out (c : Dev nD) : (dat1 (V3 m ρ) c).arrAt 5 cfg1.N
    = Cert.ReferenceIdeal.Read.val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [Layer1.final (V3 m ρ) c, Cert.ReferenceIdeal.Layers.layer2_eq, Cert.ReferenceIdeal.Layers.aggregated2_eq]
  dsimp only [V3]
  rw [W3_features, W3_aggregated, W3_arg6, W3_arg7, W3_bias]
  exact Cert.Sage.affineRelu_bias _ _ _ _ _ _ fun q =>
    (shapeCast_a_1a_apply _ _ (0 : Fin 1) q).trans (Cert.ReferenceIdeal.Layers.bias_row2 _ q).symm

/-! ## Between the second and the third layer -/

theorem W4_arg1 (c : Dev nD) : W4 m ρ c (Proc.devRef .tc main_arg1) = m ((c : Thread nD τ).loc main_arg1) :=
  (W4_of_ne m ρ c main_arg1 (by decide)).trans (W3_arg1 m ρ c)
theorem W4_arg2 (c : Dev nD) : W4 m ρ c (Proc.devRef .tc main_arg2) = m ((c : Thread nD τ).loc main_arg2) :=
  (W4_of_ne m ρ c main_arg2 (by decide)).trans (W3_arg2 m ρ c)
theorem W4_arg9 (c : Dev nD) : W4 m ρ c (Proc.devRef .tc main_arg9) = m ((c : Thread nD τ).loc main_arg9) :=
  (W4_of_ne m ρ c main_arg9 (by decide)).trans (W3_arg9 m ρ c)
theorem W4_arg10 (c : Dev nD) : W4 m ρ c (Proc.devRef .tc main_arg10) = m ((c : Thread nD τ).loc main_arg10) :=
  (W4_of_ne m ρ c main_arg10 (by decide)).trans (W3_arg10 m ρ c)
theorem W4_arg11 (c : Dev nD) : W4 m ρ c (Proc.devRef .tc main_arg11) = m ((c : Thread nD τ).loc main_arg11) :=
  (W4_of_ne m ρ c main_arg11 (by decide)).trans (W3_arg11 m ρ c)

theorem W4_out (c : Dev nD) : W4 m ρ c (Proc.devRef .tc main_v41) = Cert.ReferenceIdeal.Read.val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (W4_arr m ρ c 5).trans (layer2_out m ρ c)

theorem W5_arg9 (c : Dev nD) : W5 m ρ c (Proc.devRef .tc main_arg9) = m ((c : Thread nD τ).loc main_arg9) := by
  show StableHlo.after hostOps2 (W4 m ρ c) (Proc.devRef .tc main_arg9) = _
  after_results_simp
  exact W4_arg9 m ρ c
theorem W5_arg10 (c : Dev nD) : W5 m ρ c (Proc.devRef .tc main_arg10) = m ((c : Thread nD τ).loc main_arg10) := by
  show StableHlo.after hostOps2 (W4 m ρ c) (Proc.devRef .tc main_arg10) = _
  after_results_simp
  exact W4_arg10 m ρ c

theorem W5_features (c : Dev nD) : W5 m ρ c (Proc.devRef .tc main_v41) = Cert.ReferenceIdeal.Read.val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps2 (W4 m ρ c) (Proc.devRef .tc main_v41) = _
  after_results_simp
  exact W4_out m ρ c

/-- The third layer's aggregated input: the mean over the edges of the second layer's output. -/
theorem W5_aggregated (c : Dev nD) : W5 m ρ c (Proc.devRef .tc main_v60)
    = Cert.ReferenceIdeal.Layers.meanAgg32 (Cert.ReferenceIdeal.Read.val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg1)) (m ((c : Thread nD τ).loc main_arg2)) := by
  show StableHlo.after hostOps2 (W4 m ρ c) (Proc.devRef .tc main_v60) = _
  after_results_simp
  rw [W4_out, W4_arg1, W4_arg2]
  rfl

theorem W5_bias (c : Dev nD) : W5 m ρ c (Proc.devRef .tc main_v61) = shapeCast S1x16 (m ((c : Thread nD τ).loc main_arg11)) shapeCasts_S16_S1x16 := by
  show StableHlo.after hostOps2 (W4 m ρ c) (Proc.devRef .tc main_v61) = _
  after_results_simp
  rw [W4_arg11]
  rfl

/-- THE RESULT ARRAY is the reference's last stage at the kernel's arguments. -/
theorem result_eq (c : Dev nD) : (dat2 (V5 m ρ) c).arrAt 5 cfg2.N
    = Cert.ReferenceIdeal.Read.val_main_v76 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  rw [Layer2.final (V5 m ρ) c, Cert.ReferenceIdeal.Layers.layer3_eq, Cert.ReferenceIdeal.Layers.aggregated3_eq]
  dsimp only [V5]
  rw [W5_features, W5_aggregated, W5_arg9, W5_arg10, W5_bias]
  exact Cert.Sage.affine_bias _ _ _ _ _ _ fun q =>
    (shapeCast_a_1a_apply _ _ (0 : Fin 1) q).trans (Cert.ReferenceIdeal.Layers.bias_row3 _ q).symm

end Cert.KernelIdeal.Chain

end
-- ==== Proof.lean ====
/-
  Three graph layers with mean aggregation: the tiled kernel computes what the plain reference computes.

  Each layer maps node features `h` to `h·W_self + mean_in(h)·W_neigh + b`, where `mean_in(h)` adds row `src e` of `h` into
  row `dst e` for every edge `e` and divides each row by the larger of its in-degree and one; the first two layers clamp the
  result at zero. The kernel program computes `mean_in` with the same host operations as the reference and each layer's
  two products, bias and clamp in a tiled region over twenty blocks of 5000 nodes, converting its operands to a shorter
  float format first; the reference computes each layer with whole-array operations.

  On the extended reals a change of float format is the identity and a block product into a zero accumulator is the plain
  sum over the contracted axis, so a block of a layer's output is the same sums, bias and clamp the reference's stage has at
  those rows (Body*.lean, RefLayers.lean); the twenty blocks tile the output array (Blocks*.lean); and the host operations
  between the layers are literally the reference's (Chain.lean). Hence the kernel's result array is the reference's last
  stage evaluated at the kernel's own arguments, and the two programs, run from memories that agree on the arguments, end
  with equal results. No law of arithmetic that could fail at an infinity is used: both sides are the same expression, so the
  finiteness of the inputs is never opened. The ideal pass rewrote nothing, so there is nothing to preserve beyond that.
-/
import proofs.«113020_j37082747633734_1_alg».proof.Defs
import proofs.«113020_j37082747633734_1_alg».proof.Proof.Gen.Kernel
import proofs.«113020_j37082747633734_1_alg».proof.Proof.Gen.Kernel.Frame
import proofs.«113020_j37082747633734_1_alg».proof.Proof.Gen.KernelIdeal
import proofs.«113020_j37082747633734_1_alg».proof.Proof.Gen.KernelIdeal.Frame
import proofs.«113020_j37082747633734_1_alg».proof.Proof.Gen.ReferenceIdeal
import proofs.«113020_j37082747633734_1_alg».proof.Proof.Gen.Pre_finite_inputs
import proofs.«113020_j37082747633734_1_alg».proof.Proof.Gen.ReferenceIdeal.Run
import proofs.«113020_j37082747633734_1_alg».proof.Proof.Gen.ReferenceIdeal.Read
import proofs.«113020_j37082747633734_1_alg».proof.Proof.KernelRun
import proofs.«113020_j37082747633734_1_alg».proof.Proof.Chain
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference's run, with its result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both idealized programs end with the reference's last stage of the arguments in their result arrays. -/
theorem algebraic : Cert.algebraic_KernelIdeal_ReferenceIdeal := by
  intro m ρ m' ρ' _ hagree
  refine ⟨fun c => Cert.ReferenceIdeal.Read.val_main_v76 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.Chain.result_eq m ρ c), (h c).2⟩)
      (Cert.KernelIdeal.Whole.run (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11⟩ := hagree c
    rw [Cert.ReferenceIdeal.Read.val_main_v76_eq, e0, e1, e2, e3, e4, e5, e6, e7, e8, e9, e10, e11]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
